-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x400000 : Shape := ⟨2, ![2, 400000]⟩
abbrev S400000 : Shape := ⟨1, ![400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S400000 : S_.BroadcastsInDim S400000 (![] : Fin 0 → Fin S400000.rank)
  reducesTo_S400000_S_d0 : S400000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S512 .f32) (main_arg9 : FVec F S512x256 .f32) (main_arg10 : FVec F S256 .f32) (main_arg11 : FVec F S256x1 .f32) (main_arg12 : FVec F S1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg11
  let main_cst_18 : FVec F S_ .f32 := constant S_ .f32 0x7F800000#32
  let main_v50 : FVec F S256x1 .f32 := broadcastInDim S256x1 ![] bcast_S_S256x1 main_cst_18
  fn_part3 (F := F) main_arg12 main_v48 main_v49 main_v50

def fn_part1 {F : FTy → Type} [FloatOps F] (main_arg5 : FVec F S512x512 .f32) (main_arg6 : FVec F S512 .f32) (main_arg7 : FVec F S512x512 .f32) (main_arg8 : FVec F S512 .f32) (main_arg9 : FVec F S512x256 .f32) (main_arg10 : FVec F S256 .f32) (main_arg11 : FVec F S256x1 .f32) (main_arg12 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S20000x512 .f32) (main_arg1 : IVec S2x400000 32) (main_arg2 : FVec F S400000 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x256 .f32) (main_arg10 : FVec F S256 .f32) (main_arg11 : FVec F S256x1 .f32) (main_arg12 : FVec F S1 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_v13 main_v16
-- ==== Kernel.lean ====
abbrev S20000x512 : Shape := ⟨2, ![20000, 512]⟩
abbrev S2x400000 : Shape := ⟨2, ![2, 400000]⟩
abbrev S400000 : Shape := ⟨1, ![400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x400000 : Shape := ⟨2, ![1, 400000]⟩
abbrev S20000 : Shape := ⟨1, ![20000]⟩
abbrev S420000 : Shape := ⟨1, ![420000]⟩
abbrev S_ : Shape := ⟨0, ![]⟩
abbrev S420000x1 : Shape := ⟨2, ![420000, 1]⟩
abbrev S2000x512 : Shape := ⟨2, ![2000, 512]⟩
abbrev S420000x512 : Shape := ⟨2, ![420000, 512]⟩
abbrev S1x512 : Shape := ⟨2, ![1, 512]⟩
abbrev S20000x256 : Shape := ⟨2, ![20000, 256]⟩
abbrev S2000x256 : Shape := ⟨2, ![2000, 256]⟩
abbrev S420000x256 : Shape := ⟨2, ![420000, 256]⟩
abbrev S1x256 : Shape := ⟨2, ![1, 256]⟩
abbrev S20000x1 : Shape := ⟨2, ![20000, 1]⟩
abbrev S2000x1 : Shape := ⟨2, ![2000, 1]⟩
abbrev S1x1 : Shape := ⟨2, ![1, 1]⟩

abbrev nBuf : Space → Nat
  | .hbm => 167
  | .vmem => 25
  | .smem => 0
  | _ => 0

abbrev hbmTy0_0 (i : Nat) : BufTy := match i % 128 with
  | 0 => ⟨S20000x512, .f32⟩
  | 1 => ⟨S2x400000, .i32⟩
  | 2 => ⟨S400000, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x256, .f32⟩
  | 10 => ⟨S256, .f32⟩
  | 11 => ⟨S256x1, .f32⟩
  | 12 => ⟨S1, .f32⟩
  | 13 => ⟨S1x400000, .i32⟩
  | 14 => ⟨S400000, .i32⟩
  | 15 => ⟨S1x400000, .i32⟩
  | 16 => ⟨S400000, .i32⟩
  | 17 => ⟨S20000, .i32⟩
  | 18 => ⟨S420000, .i32⟩
  | 19 => ⟨S420000, .i32⟩
  | 20 => ⟨S_, .f32⟩
  | 21 => ⟨S20000, .f32⟩
  | 22 => ⟨S420000, .f32⟩
  | 23 => ⟨S_, .f32⟩
  | 24 => ⟨S20000, .f32⟩
  | 25 => ⟨S420000x1, .i32⟩
  | 26 => ⟨S20000, .f32⟩
  | 27 => ⟨S_, .f32⟩
  | 28 => ⟨S20000, .f32⟩
  | 29 => ⟨S20000, .i1⟩
  | 30 => ⟨S20000, .f32⟩
  | 31 => ⟨S_, .f32⟩
  | 32 => ⟨S_, .f32⟩
  | 33 => ⟨S20000, .f32⟩
  | 34 => ⟨S20000, .f32⟩
  | 35 => ⟨S_, .i32⟩
  | 36 => ⟨S420000, .i32⟩
  | 37 => ⟨S420000, .i1⟩
  | 38 => ⟨S_, .i32⟩
  | 39 => ⟨S420000, .i32⟩
  | 40 => ⟨S420000, .i32⟩
  | 41 => ⟨S420000, .i32⟩
  | 42 => ⟨S420000x1, .i32⟩
  | 43 => ⟨S420000, .f32⟩
  | 44 => ⟨S420000, .f32⟩
  | 45 => ⟨S_, .i32⟩
  | 46 => ⟨S420000, .i32⟩
  | 47 => ⟨S420000, .i1⟩
  | 48 => ⟨S_, .i32⟩
  | 49 => ⟨S420000, .i32⟩
  | 50 => ⟨S420000, .i32⟩
  | 51 => ⟨S420000, .i32⟩
  | 52 => ⟨S420000x1, .i32⟩
  | 53 => ⟨S420000, .f32⟩
  | 54 => ⟨S420000, .f32⟩
  | 55 => ⟨S420000x1, .f32⟩
  | 56 => ⟨S512x512, .bf16⟩
  | 57 => ⟨S20000x512, .f32⟩
  | 58 => ⟨S_, .i32⟩
  | 59 => ⟨S420000, .i32⟩
  | 60 => ⟨S420000, .i1⟩
  | 61 => ⟨S_, .i32⟩
  | 62 => ⟨S420000, .i32⟩
  | 63 => ⟨S420000, .i32⟩
  | 64 => ⟨S420000, .i32⟩
  | 65 => ⟨S420000x1, .i32⟩
  | 66 => ⟨S420000x512, .f32⟩
  | 67 => ⟨S420000x512, .f32⟩
  | 68 => ⟨S420000x512, .f32⟩
  | 69 => ⟨S_, .f32⟩
  | 70 => ⟨S20000x512, .f32⟩
  | 71 => ⟨S420000x1, .i32⟩
  | 72 => ⟨S20000x512, .f32⟩
  | 73 => ⟨S1x512, .f32⟩
  | 74 => ⟨S20000x512, .f32⟩
  | 75 => ⟨S20000x512, .f32⟩
  | 76 => ⟨S_, .f32⟩
  | 77 => ⟨S20000x512, .f32⟩
  | 78 => ⟨S20000x512, .f32⟩
  | 79 => ⟨S512x512, .bf16⟩
  | 80 => ⟨S20000x512, .f32⟩
  | 81 => ⟨S_, .i32⟩
  | 82 => ⟨S420000, .i32⟩
  | 83 => ⟨S420000, .i1⟩
  | 84 => ⟨S_, .i32⟩
  | 85 => ⟨S420000, .i32⟩
  | 86 => ⟨S420000, .i32⟩
  | 87 => ⟨S420000, .i32⟩
  | 88 => ⟨S420000x1, .i32⟩
  | 89 => ⟨S420000x512, .f32⟩
  | 90 => ⟨S420000x512, .f32⟩
  | 91 => ⟨S420000x512, .f32⟩
  | 92 => ⟨S_, .f32⟩
  | 93 => ⟨S20000x512, .f32⟩
  | 94 => ⟨S420000x1, .i32⟩
  | 95 => ⟨S20000x512, .f32⟩
  | 96 => ⟨S1x512, .f32⟩
  | 97 => ⟨S20000x512, .f32⟩
  | 98 => ⟨S20000x512, .f32⟩
  | 99 => ⟨S_, .f32⟩
  | 100 => ⟨S20000x512, .f32⟩
  | 101 => ⟨S20000x512, .f32⟩
  | 102 => ⟨S512x512, .bf16⟩
  | 103 => ⟨S20000x512, .f32⟩
  | 104 => ⟨S_, .i32⟩
  | 105 => ⟨S420000, .i32⟩
  | 106 => ⟨S420000, .i1⟩
  | 107 => ⟨S_, .i32⟩
  | 108 => ⟨S420000, .i32⟩
  | 109 => ⟨S420000, .i32⟩
  | 110 => ⟨S420000, .i32⟩
  | 111 => ⟨S420000x1, .i32⟩
  | 112 => ⟨S420000x512, .f32⟩
  | 113 => ⟨S420000x512, .f32⟩
  | 114 => ⟨S420000x512, .f32⟩
  | 115 => ⟨S_, .f32⟩
  | 116 => ⟨S20000x512, .f32⟩
  | 117 => ⟨S420000x1, .i32⟩
  | 118 => ⟨S20000x512, .f32⟩
  | 119 => ⟨S1x512, .f32⟩
  | 120 => ⟨S20000x512, .f32⟩
  | 121 => ⟨S20000x512, .f32⟩
  | 122 => ⟨S_, .f32⟩
  | 123 => ⟨S20000x512, .f32⟩
  | 124 => ⟨S20000x512, .f32⟩
  | 125 => ⟨S512x256, .bf16⟩
  | 126 => ⟨S20000x256, .f32⟩
  | 127 => ⟨S_, .i32⟩
  | _ => ⟨S20000x512, .f32⟩

abbrev hbmTy0_1 (i : Nat) : BufTy := match i % 128 with
  | 0 => ⟨S420000, .i32⟩
  | 1 => ⟨S420000, .i1⟩
  | 2 => ⟨S_, .i32⟩
  | 3 => ⟨S420000, .i32⟩
  | 4 => ⟨S420000, .i32⟩
  | 5 => ⟨S420000, .i32⟩
  | 6 => ⟨S420000x1, .i32⟩
  | 7 => ⟨S420000x256, .f32⟩
  | 8 => ⟨S420000x256, .f32⟩
  | 9 => ⟨S420000x256, .f32⟩
  | 10 => ⟨S_, .f32⟩
  | 11 => ⟨S20000x256, .f32⟩
  | 12 => ⟨S420000x1, .i32⟩
  | 13 => ⟨S20000x256, .f32⟩
  | 14 => ⟨S1x256, .f32⟩
  | 15 => ⟨S20000x256, .f32⟩
  | 16 => ⟨S20000x256, .f32⟩
  | 17 => ⟨S_, .f32⟩
  | 18 => ⟨S20000x256, .f32⟩
  | 19 => ⟨S20000x256, .f32⟩
  | 20 => ⟨S256x1, .bf16⟩
  | 21 => ⟨S20000x1, .f32⟩
  | 22 => ⟨S_, .i32⟩
  | 23 => ⟨S420000, .i32⟩
  | 24 => ⟨S420000, .i1⟩
  | 25 => ⟨S_, .i32⟩
  | 26 => ⟨S420000, .i32⟩
  | 27 => ⟨S420000, .i32⟩
  | 28 => ⟨S420000, .i32⟩
  | 29 => ⟨S420000x1, .i32⟩
  | 30 => ⟨S420000x1, .f32⟩
  | 31 => ⟨S420000x1, .f32⟩
  | 32 => ⟨S_, .f32⟩
  | 33 => ⟨S20000x1, .f32⟩
  | 34 => ⟨S420000x1, .i32⟩
  | 35 => ⟨S20000x1, .f32⟩
  | 36 => ⟨S1x1, .f32⟩
  | 37 => ⟨S20000x1, .f32⟩
  | 38 => ⟨S20000x1, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x512, .bf16⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x512, .bf16⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S512x256, .bf16⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x1, .bf16⟩
  | .local _ .vmem, ⟨23, _⟩ => ⟨S2000x1, .f32⟩
  | .local _ .vmem, ⟨24, _⟩ => ⟨S2000x1, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call2_cst : Ref sig .tc := ⟨.hbm, 99, rfl⟩
abbrev main_call2_v0 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_12 : Ref sig .tc := ⟨.hbm, 104, rfl⟩
abbrev main_v71 : Ref sig .tc := ⟨.hbm, 105, rfl⟩
abbrev main_v72 : Ref sig .tc := ⟨.hbm, 106, rfl⟩
abbrev main_c_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_14 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_call3_cst : Ref sig .tc := ⟨.hbm, 122, rfl⟩
abbrev main_call3_v0 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_15 : Ref sig .tc := ⟨.hbm, 127, rfl⟩
abbrev main_v89 : Ref sig .tc := ⟨.hbm, 128, rfl⟩
abbrev main_v90 : Ref sig .tc := ⟨.hbm, 129, rfl⟩
abbrev main_c_16 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_17 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_call4_cst : Ref sig .tc := ⟨.hbm, 145, rfl⟩
abbrev main_call4_v0 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_c_18 : Ref sig .tc := ⟨.hbm, 150, rfl⟩
abbrev main_v107 : Ref sig .tc := ⟨.hbm, 151, rfl⟩
abbrev main_v108 : Ref sig .tc := ⟨.hbm, 152, rfl⟩
abbrev main_c_19 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_20 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x1 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S20000_S420000_d0 : Shape.Concatenates [S400000, S20000] S420000 0
  bcast_S_S20000 : S_.BroadcastsInDim S20000 (![] : Fin 0 → Fin S20000.rank)
  bcast_S420000_S420000x1_0 : S420000.BroadcastsInDim S420000x1 (![0] : Fin 1 → Fin S420000x1.rank)
  bcast_S_S420000 : S_.BroadcastsInDim S420000 (![] : Fin 0 → Fin S420000.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S420000x1_S420000x512_0_1 : S420000x1.BroadcastsInDim S420000x512 (![0, 1] : Fin 2 → Fin S420000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S420000x1_S420000x256_0_1 : S420000x1.BroadcastsInDim S420000x256 (![0, 1] : Fin 2 → Fin S420000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  shapeCasts_S2000x256_S2000x256 : S2000x256.ShapeCasts S2000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2000x1_S2000x1_0_0 : ∀ a, (![0, 0] : Fin 2 → Nat) a + S2000x1.size a ≤ S2000x1.size a
  h_S2000x1 : 0 < S2000x1.numel
  bcast_S_S20000x1 : S_.BroadcastsInDim S20000x1 (![] : Fin 0 → Fin S20000x1.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  scatter_S20000_S420000x1_S420000_n_0_0_1_wf : ScatterDims.WF S20000 S420000x1 S420000 [] [0] [0] 1
  gather_S20000_S420000x1_S420000_n_0_n_n_0_1_1_wf : GatherDims.WF S20000 S420000x1 S420000 [] [0] [] [0] [] 1 ![1]
  dot_S2000x512_S512x512_S2000x512_1_0_0_1_n_n_wf : DotDims.WF S2000x512 S512x512 S2000x512 [1] [0] [0] [1] [] []
  gather_S20000x512_S420000x1_S420000x512_1_0_n_n_0_1_1512_wf : GatherDims.WF S20000x512 S420000x1 S420000x512 [1] [0] [] [0] [] 1 ![1, 512]
  scatter_S20000x512_S420000x1_S420000x512_1_0_0_1_wf : ScatterDims.WF S20000x512 S420000x1 S420000x512 [1] [0] [0] 1
  dot_S2000x512_S512x256_S2000x256_1_0_0_1_n_n_wf : DotDims.WF S2000x512 S512x256 S2000x256 [1] [0] [0] [1] [] []
  gather_S20000x256_S420000x1_S420000x256_1_0_n_n_0_1_1256_wf : GatherDims.WF S20000x256 S420000x1 S420000x256 [1] [0] [] [0] [] 1 ![1, 256]
  scatter_S20000x256_S420000x1_S420000x256_1_0_0_1_wf : ScatterDims.WF S20000x256 S420000x1 S420000x256 [1] [0] [0] 1
  dot_S2000x256_S256x1_S2000x1_1_0_0_1_n_n_wf : DotDims.WF S2000x256 S256x1 S2000x1 [1] [0] [0] [1] [] []
  gather_S20000x1_S420000x1_S420000x1_1_0_n_n_0_1_11_wf : GatherDims.WF S20000x1 S420000x1 S420000x1 [1] [0] [] [0] [] 1 ![1, 1]
  scatter_S20000x1_S420000x1_S420000x1_1_0_0_1_wf : ScatterDims.WF S20000x1 S420000x1 S420000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .f32 = 32 ∨ (Rect.block (s := S20000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S20000x512.size a
  hwx1_2 : ∀ i : grid1.Coords, EltTy.bits .f32 = 32 ∨ (Rect.block (s := S20000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S20000x512.size a
  hwx2_2 : ∀ i : grid2.Coords, EltTy.bits .f32 = 32 ∨ (Rect.block (s := S20000x512) S2000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S20000x512.size a
  hwx3_0 : ∀ i : grid3.Coords, EltTy.bits .f32 = 32 ∨ (Rect.block (s := S20000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .bf16 = 32 ∨ (Rect.block (s := S512x256) S512x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x1.size a ≤ S256x1.size a
  hwx4_1 : ∀ i : grid4.Coords, EltTy.bits .bf16 = 32 ∨ (Rect.block (s := S256x1) S256x1.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S20000x1.size a
  hwx4_2 : ∀ i : grid4.Coords, EltTy.bits .f32 = 32 ∨ (Rect.block (s := S20000x1) S2000x1.size (cc4_transform_2 i) (hinb4_2 i)).WholeWords (EltTy.packing .f32)

variable [Facts₀]

def scatter_S20000_S420000x1_S420000_n_0_0_1 : ScatterDims S20000 S420000x1 S420000 where
  updateWindowDims := []
  insertedWindowDims := [0]
  scatterDimsToOperandDims := [0]
  indexVectorDim := 1
  wf := scatter_S20000_S420000x1_S420000_n_0_0_1_wf
def gather_S20000_S420000x1_S420000_n_0_n_n_0_1_1 : GatherDims S20000 S420000x1 S420000 where
  offsetDims := []
  collapsedSliceDims := [0]
  operandBatchingDims := []
  startIndicesBatchingDims := []
  startIndexMap := [0]
  indexVectorDim := 1
  sliceSizes := ![1]
  wf := gather_S20000_S420000x1_S420000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S20000x512_S420000x1_S420000x512_1_0_n_n_0_1_1512 : GatherDims S20000x512 S420000x1 S420000x512 where
  offsetDims := [1]
  collapsedSliceDims := [0]
  operandBatchingDims := []
  startIndicesBatchingDims := []
  startIndexMap := [0]
  indexVectorDim := 1
  sliceSizes := ![1, 512]
  wf := gather_S20000x512_S420000x1_S420000x512_1_0_n_n_0_1_1512_wf
def scatter_S20000x512_S420000x1_S420000x512_1_0_0_1 : ScatterDims S20000x512 S420000x1 S420000x512 where
  updateWindowDims := [1]
  insertedWindowDims := [0]
  scatterDimsToOperandDims := [0]
  indexVectorDim := 1
  wf := scatter_S20000x512_S420000x1_S420000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S20000x256_S420000x1_S420000x256_1_0_n_n_0_1_1256 : GatherDims S20000x256 S420000x1 S420000x256 where
  offsetDims := [1]
  collapsedSliceDims := [0]
  operandBatchingDims := []
  startIndicesBatchingDims := []
  startIndexMap := [0]
  indexVectorDim := 1
  sliceSizes := ![1, 256]
  wf := gather_S20000x256_S420000x1_S420000x256_1_0_n_n_0_1_1256_wf
def scatter_S20000x256_S420000x1_S420000x256_1_0_0_1 : ScatterDims S20000x256 S420000x1 S420000x256 where
  updateWindowDims := [1]
  insertedWindowDims := [0]
  scatterDimsToOperandDims := [0]
  indexVectorDim := 1
  wf := scatter_S20000x256_S420000x1_S420000x256_1_0_0_1_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def gather_S20000x1_S420000x1_S420000x1_1_0_n_n_0_1_11 : GatherDims S20000x1 S420000x1 S420000x1 where
  offsetDims := [1]
  collapsedSliceDims := [0]
  operandBatchingDims := []
  startIndicesBatchingDims := []
  startIndexMap := [0]
  indexVectorDim := 1
  sliceSizes := ![1, 1]
  wf := gather_S20000x1_S420000x1_S420000x1_1_0_n_n_0_1_11_wf
def scatter_S20000x1_S420000x1_S420000x1_1_0_0_1 : ScatterDims S20000x1 S420000x1 S420000x1 where
  updateWindowDims := [1]
  insertedWindowDims := [0]
  scatterDimsToOperandDims := [0]
  indexVectorDim := 1
  wf := scatter_S20000x1_S420000x1_S420000x1_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v86) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v104) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S256x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S2000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S20000x512 : Shape := ⟨2, ![20000, 512]⟩
abbrev S2x400000 : Shape := ⟨2, ![2, 400000]⟩
abbrev S400000 : Shape := ⟨1, ![400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x400000 : Shape := ⟨2, ![1, 400000]⟩
abbrev S20000 : Shape := ⟨1, ![20000]⟩
abbrev S420000 : Shape := ⟨1, ![420000]⟩
abbrev S_ : Shape := ⟨0, ![]⟩
abbrev S420000x1 : Shape := ⟨2, ![420000, 1]⟩
abbrev S420000x512 : Shape := ⟨2, ![420000, 512]⟩
abbrev S1x512 : Shape := ⟨2, ![1, 512]⟩
abbrev S20000x256 : Shape := ⟨2, ![20000, 256]⟩
abbrev S420000x256 : Shape := ⟨2, ![420000, 256]⟩
abbrev S1x256 : Shape := ⟨2, ![1, 256]⟩
abbrev S20000x1 : Shape := ⟨2, ![20000, 1]⟩
abbrev S1x1 : Shape := ⟨2, ![1, 1]⟩

abbrev nBuf : Space → Nat
  | .hbm => 318
  | .vmem => 0
  | .smem => 0
  | _ => 0

abbrev hbmTy0_0 (i : Nat) : BufTy := match i % 128 with
  | 0 => ⟨S20000x512, .f32⟩
  | 1 => ⟨S2x400000, .i32⟩
  | 2 => ⟨S400000, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x256, .f32⟩
  | 10 => ⟨S256, .f32⟩
  | 11 => ⟨S256x1, .f32⟩
  | 12 => ⟨S1, .f32⟩
  | 13 => ⟨S1x400000, .i32⟩
  | 14 => ⟨S400000, .i32⟩
  | 15 => ⟨S1x400000, .i32⟩
  | 16 => ⟨S400000, .i32⟩
  | 17 => ⟨S20000x512, .f32⟩
  | 18 => ⟨S20000, .i32⟩
  | 19 => ⟨S420000, .i32⟩
  | 20 => ⟨S420000, .i32⟩
  | 21 => ⟨S_, .f32⟩
  | 22 => ⟨S20000, .f32⟩
  | 23 => ⟨S420000, .f32⟩
  | 24 => ⟨S_, .f32⟩
  | 25 => ⟨S20000, .f32⟩
  | 26 => ⟨S420000x1, .i32⟩
  | 27 => ⟨S20000, .f32⟩
  | 28 => ⟨S_, .f32⟩
  | 29 => ⟨S20000, .f32⟩
  | 30 => ⟨S20000, .i1⟩
  | 31 => ⟨S20000, .f32⟩
  | 32 => ⟨S_, .f32⟩
  | 33 => ⟨S_, .f32⟩
  | 34 => ⟨S20000, .f32⟩
  | 35 => ⟨S20000, .f32⟩
  | 36 => ⟨S_, .i32⟩
  | 37 => ⟨S420000, .i32⟩
  | 38 => ⟨S420000, .i1⟩
  | 39 => ⟨S_, .i32⟩
  | 40 => ⟨S420000, .i32⟩
  | 41 => ⟨S420000, .i32⟩
  | 42 => ⟨S420000, .i32⟩
  | 43 => ⟨S420000x1, .i32⟩
  | 44 => ⟨S420000, .f32⟩
  | 45 => ⟨S420000, .f32⟩
  | 46 => ⟨S_, .i32⟩
  | 47 => ⟨S420000, .i32⟩
  | 48 => ⟨S420000, .i1⟩
  | 49 => ⟨S_, .i32⟩
  | 50 => ⟨S420000, .i32⟩
  | 51 => ⟨S420000, .i32⟩
  | 52 => ⟨S420000, .i32⟩
  | 53 => ⟨S420000x1, .i32⟩
  | 54 => ⟨S420000, .f32⟩
  | 55 => ⟨S420000, .f32⟩
  | 56 => ⟨S420000x1, .f32⟩
  | 57 => ⟨S_, .i32⟩
  | 58 => ⟨S420000, .i32⟩
  | 59 => ⟨S420000, .i1⟩
  | 60 => ⟨S_, .i32⟩
  | 61 => ⟨S420000, .i32⟩
  | 62 => ⟨S420000, .i32⟩
  | 63 => ⟨S420000, .i32⟩
  | 64 => ⟨S420000x1, .i32⟩
  | 65 => ⟨S420000x512, .f32⟩
  | 66 => ⟨S420000x512, .f32⟩
  | 67 => ⟨S420000x512, .f32⟩
  | 68 => ⟨S_, .f32⟩
  | 69 => ⟨S20000x512, .f32⟩
  | 70 => ⟨S420000x1, .i32⟩
  | 71 => ⟨S20000x512, .f32⟩
  | 72 => ⟨S1x512, .f32⟩
  | 73 => ⟨S20000x512, .f32⟩
  | 74 => ⟨S20000x512, .f32⟩
  | 75 => ⟨S_, .f32⟩
  | 76 => ⟨S20000x512, .f32⟩
  | 77 => ⟨S20000x512, .f32⟩
  | 78 => ⟨S20000x512, .f32⟩
  | 79 => ⟨S20000, .i32⟩
  | 80 => ⟨S420000, .i32⟩
  | 81 => ⟨S420000, .i32⟩
  | 82 => ⟨S_, .f32⟩
  | 83 => ⟨S20000, .f32⟩
  | 84 => ⟨S420000, .f32⟩
  | 85 => ⟨S_, .f32⟩
  | 86 => ⟨S20000, .f32⟩
  | 87 => ⟨S420000x1, .i32⟩
  | 88 => ⟨S20000, .f32⟩
  | 89 => ⟨S_, .f32⟩
  | 90 => ⟨S20000, .f32⟩
  | 91 => ⟨S20000, .i1⟩
  | 92 => ⟨S20000, .f32⟩
  | 93 => ⟨S_, .f32⟩
  | 94 => ⟨S_, .f32⟩
  | 95 => ⟨S20000, .f32⟩
  | 96 => ⟨S20000, .f32⟩
  | 97 => ⟨S_, .i32⟩
  | 98 => ⟨S420000, .i32⟩
  | 99 => ⟨S420000, .i1⟩
  | 100 => ⟨S_, .i32⟩
  | 101 => ⟨S420000, .i32⟩
  | 102 => ⟨S420000, .i32⟩
  | 103 => ⟨S420000, .i32⟩
  | 104 => ⟨S420000x1, .i32⟩
  | 105 => ⟨S420000, .f32⟩
  | 106 => ⟨S420000, .f32⟩
  | 107 => ⟨S_, .i32⟩
  | 108 => ⟨S420000, .i32⟩
  | 109 => ⟨S420000, .i1⟩
  | 110 => ⟨S_, .i32⟩
  | 111 => ⟨S420000, .i32⟩
  | 112 => ⟨S420000, .i32⟩
  | 113 => ⟨S420000, .i32⟩
  | 114 => ⟨S420000x1, .i32⟩
  | 115 => ⟨S420000, .f32⟩
  | 116 => ⟨S420000, .f32⟩
  | 117 => ⟨S420000x1, .f32⟩
  | 118 => ⟨S_, .i32⟩
  | 119 => ⟨S420000, .i32⟩
  | 120 => ⟨S420000, .i1⟩
  | 121 => ⟨S_, .i32⟩
  | 122 => ⟨S420000, .i32⟩
  | 123 => ⟨S420000, .i32⟩
  | 124 => ⟨S420000, .i32⟩
  | 125 => ⟨S420000x1, .i32⟩
  | 126 => ⟨S420000x512, .f32⟩
  | 127 => ⟨S420000x512, .f32⟩
  | _ => ⟨S20000x512, .f32⟩

abbrev hbmTy0_1 (i : Nat) : BufTy := match i % 128 with
  | 0 => ⟨S420000x512, .f32⟩
  | 1 => ⟨S_, .f32⟩
  | 2 => ⟨S20000x512, .f32⟩
  | 3 => ⟨S420000x1, .i32⟩
  | 4 => ⟨S20000x512, .f32⟩
  | 5 => ⟨S1x512, .f32⟩
  | 6 => ⟨S20000x512, .f32⟩
  | 7 => ⟨S20000x512, .f32⟩
  | 8 => ⟨S_, .f32⟩
  | 9 => ⟨S20000x512, .f32⟩
  | 10 => ⟨S20000x512, .f32⟩
  | 11 => ⟨S20000x512, .f32⟩
  | 12 => ⟨S20000, .i32⟩
  | 13 => ⟨S420000, .i32⟩
  | 14 => ⟨S420000, .i32⟩
  | 15 => ⟨S_, .f32⟩
  | 16 => ⟨S20000, .f32⟩
  | 17 => ⟨S420000, .f32⟩
  | 18 => ⟨S_, .f32⟩
  | 19 => ⟨S20000, .f32⟩
  | 20 => ⟨S420000x1, .i32⟩
  | 21 => ⟨S20000, .f32⟩
  | 22 => ⟨S_, .f32⟩
  | 23 => ⟨S20000, .f32⟩
  | 24 => ⟨S20000, .i1⟩
  | 25 => ⟨S20000, .f32⟩
  | 26 => ⟨S_, .f32⟩
  | 27 => ⟨S_, .f32⟩
  | 28 => ⟨S20000, .f32⟩
  | 29 => ⟨S20000, .f32⟩
  | 30 => ⟨S_, .i32⟩
  | 31 => ⟨S420000, .i32⟩
  | 32 => ⟨S420000, .i1⟩
  | 33 => ⟨S_, .i32⟩
  | 34 => ⟨S420000, .i32⟩
  | 35 => ⟨S420000, .i32⟩
  | 36 => ⟨S420000, .i32⟩
  | 37 => ⟨S420000x1, .i32⟩
  | 38 => ⟨S420000, .f32⟩
  | 39 => ⟨S420000, .f32⟩
  | 40 => ⟨S_, .i32⟩
  | 41 => ⟨S420000, .i32⟩
  | 42 => ⟨S420000, .i1⟩
  | 43 => ⟨S_, .i32⟩
  | 44 => ⟨S420000, .i32⟩
  | 45 => ⟨S420000, .i32⟩
  | 46 => ⟨S420000, .i32⟩
  | 47 => ⟨S420000x1, .i32⟩
  | 48 => ⟨S420000, .f32⟩
  | 49 => ⟨S420000, .f32⟩
  | 50 => ⟨S420000x1, .f32⟩
  | 51 => ⟨S_, .i32⟩
  | 52 => ⟨S420000, .i32⟩
  | 53 => ⟨S420000, .i1⟩
  | 54 => ⟨S_, .i32⟩
  | 55 => ⟨S420000, .i32⟩
  | 56 => ⟨S420000, .i32⟩
  | 57 => ⟨S420000, .i32⟩
  | 58 => ⟨S420000x1, .i32⟩
  | 59 => ⟨S420000x512, .f32⟩
  | 60 => ⟨S420000x512, .f32⟩
  | 61 => ⟨S420000x512, .f32⟩
  | 62 => ⟨S_, .f32⟩
  | 63 => ⟨S20000x512, .f32⟩
  | 64 => ⟨S420000x1, .i32⟩
  | 65 => ⟨S20000x512, .f32⟩
  | 66 => ⟨S1x512, .f32⟩
  | 67 => ⟨S20000x512, .f32⟩
  | 68 => ⟨S20000x512, .f32⟩
  | 69 => ⟨S_, .f32⟩
  | 70 => ⟨S20000x512, .f32⟩
  | 71 => ⟨S20000x512, .f32⟩
  | 72 => ⟨S20000x256, .f32⟩
  | 73 => ⟨S20000, .i32⟩
  | 74 => ⟨S420000, .i32⟩
  | 75 => ⟨S420000, .i32⟩
  | 76 => ⟨S_, .f32⟩
  | 77 => ⟨S20000, .f32⟩
  | 78 => ⟨S420000, .f32⟩
  | 79 => ⟨S_, .f32⟩
  | 80 => ⟨S20000, .f32⟩
  | 81 => ⟨S420000x1, .i32⟩
  | 82 => ⟨S20000, .f32⟩
  | 83 => ⟨S_, .f32⟩
  | 84 => ⟨S20000, .f32⟩
  | 85 => ⟨S20000, .i1⟩
  | 86 => ⟨S20000, .f32⟩
  | 87 => ⟨S_, .f32⟩
  | 88 => ⟨S_, .f32⟩
  | 89 => ⟨S20000, .f32⟩
  | 90 => ⟨S20000, .f32⟩
  | 91 => ⟨S_, .i32⟩
  | 92 => ⟨S420000, .i32⟩
  | 93 => ⟨S420000, .i1⟩
  | 94 => ⟨S_, .i32⟩
  | 95 => ⟨S420000, .i32⟩
  | 96 => ⟨S420000, .i32⟩
  | 97 => ⟨S420000, .i32⟩
  | 98 => ⟨S420000x1, .i32⟩
  | 99 => ⟨S420000, .f32⟩
  | 100 => ⟨S420000, .f32⟩
  | 101 => ⟨S_, .i32⟩
  | 102 => ⟨S420000, .i32⟩
  | 103 => ⟨S420000, .i1⟩
  | 104 => ⟨S_, .i32⟩
  | 105 => ⟨S420000, .i32⟩
  | 106 => ⟨S420000, .i32⟩
  | 107 => ⟨S420000, .i32⟩
  | 108 => ⟨S420000x1, .i32⟩
  | 109 => ⟨S420000, .f32⟩
  | 110 => ⟨S420000, .f32⟩
  | 111 => ⟨S420000x1, .f32⟩
  | 112 => ⟨S_, .i32⟩
  | 113 => ⟨S420000, .i32⟩
  | 114 => ⟨S420000, .i1⟩
  | 115 => ⟨S_, .i32⟩
  | 116 => ⟨S420000, .i32⟩
  | 117 => ⟨S420000, .i32⟩
  | 118 => ⟨S420000, .i32⟩
  | 119 => ⟨S420000x1, .i32⟩
  | 120 => ⟨S420000x256, .f32⟩
  | 121 => ⟨S420000x256, .f32⟩
  | 122 => ⟨S420000x256, .f32⟩
  | 123 => ⟨S_, .f32⟩
  | 124 => ⟨S20000x256, .f32⟩
  | 125 => ⟨S420000x1, .i32⟩
  | 126 => ⟨S20000x256, .f32⟩
  | 127 => ⟨S1x256, .f32⟩
  | _ => ⟨S20000x512, .f32⟩

abbrev hbmTy0_2 (i : Nat) : BufTy := match i % 128 with
  | 0 => ⟨S20000x256, .f32⟩
  | 1 => ⟨S20000x256, .f32⟩
  | 2 => ⟨S_, .f32⟩
  | 3 => ⟨S20000x256, .f32⟩
  | 4 => ⟨S20000x256, .f32⟩
  | 5 => ⟨S20000x1, .f32⟩
  | 6 => ⟨S20000, .i32⟩
  | 7 => ⟨S420000, .i32⟩
  | 8 => ⟨S420000, .i32⟩
  | 9 => ⟨S_, .f32⟩
  | 10 => ⟨S20000, .f32⟩
  | 11 => ⟨S420000, .f32⟩
  | 12 => ⟨S_, .f32⟩
  | 13 => ⟨S20000, .f32⟩
  | 14 => ⟨S420000x1, .i32⟩
  | 15 => ⟨S20000, .f32⟩
  | 16 => ⟨S_, .f32⟩
  | 17 => ⟨S20000, .f32⟩
  | 18 => ⟨S20000, .i1⟩
  | 19 => ⟨S20000, .f32⟩
  | 20 => ⟨S_, .f32⟩
  | 21 => ⟨S_, .f32⟩
  | 22 => ⟨S20000, .f32⟩
  | 23 => ⟨S20000, .f32⟩
  | 24 => ⟨S_, .i32⟩
  | 25 => ⟨S420000, .i32⟩
  | 26 => ⟨S420000, .i1⟩
  | 27 => ⟨S_, .i32⟩
  | 28 => ⟨S420000, .i32⟩
  | 29 => ⟨S420000, .i32⟩
  | 30 => ⟨S420000, .i32⟩
  | 31 => ⟨S420000x1, .i32⟩
  | 32 => ⟨S420000, .f32⟩
  | 33 => ⟨S420000, .f32⟩
  | 34 => ⟨S_, .i32⟩
  | 35 => ⟨S420000, .i32⟩
  | 36 => ⟨S420000, .i1⟩
  | 37 => ⟨S_, .i32⟩
  | 38 => ⟨S420000, .i32⟩
  | 39 => ⟨S420000, .i32⟩
  | 40 => ⟨S420000, .i32⟩
  | 41 => ⟨S420000x1, .i32⟩
  | 42 => ⟨S420000, .f32⟩
  | 43 => ⟨S420000, .f32⟩
  | 44 => ⟨S420000x1, .f32⟩
  | 45 => ⟨S_, .i32⟩
  | 46 => ⟨S420000, .i32⟩
  | 47 => ⟨S420000, .i1⟩
  | 48 => ⟨S_, .i32⟩
  | 49 => ⟨S420000, .i32⟩
  | 50 => ⟨S420000, .i32⟩
  | 51 => ⟨S420000, .i32⟩
  | 52 => ⟨S420000x1, .i32⟩
  | 53 => ⟨S420000x1, .f32⟩
  | 54 => ⟨S420000x1, .f32⟩
  | 55 => ⟨S_, .f32⟩
  | 56 => ⟨S20000x1, .f32⟩
  | 57 => ⟨S420000x1, .i32⟩
  | 58 => ⟨S20000x1, .f32⟩
  | 59 => ⟨S1x1, .f32⟩
  | 60 => ⟨S20000x1, .f32⟩
  | 61 => ⟨S20000x1, .f32⟩
  | _ => ⟨S20000x512, .f32⟩

abbrev hbmTy (i : Nat) : BufTy := match i / 128 with
  | 0 => hbmTy0_0 i
  | 1 => hbmTy0_1 i
  | 2 => hbmTy0_2 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v62 : Ref sig .tc := ⟨.hbm, 96, rfl⟩
abbrev main_c_13 : Ref sig .tc := ⟨.hbm, 97, rfl⟩
abbrev main_v63 : Ref sig .tc := ⟨.hbm, 98, rfl⟩
abbrev main_v64 : Ref sig .tc := ⟨.hbm, 99, rfl⟩
abbrev main_c_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_15 : Ref sig .tc := ⟨.hbm, 107, rfl⟩
abbrev main_v71 : Ref sig .tc := ⟨.hbm, 108, rfl⟩
abbrev main_v72 : Ref sig .tc := ⟨.hbm, 109, rfl⟩
abbrev main_c_16 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_17 : Ref sig .tc := ⟨.hbm, 118, rfl⟩
abbrev main_v80 : Ref sig .tc := ⟨.hbm, 119, rfl⟩
abbrev main_v81 : Ref sig .tc := ⟨.hbm, 120, rfl⟩
abbrev main_c_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_19 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call3_cst : Ref sig .tc := ⟨.hbm, 136, rfl⟩
abbrev main_call3_v0 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_20 : Ref sig .tc := ⟨.hbm, 143, rfl⟩
abbrev main_v100 : Ref sig .tc := ⟨.hbm, 144, rfl⟩
abbrev main_v101 : Ref sig .tc := ⟨.hbm, 145, rfl⟩
abbrev main_cst_21 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_22 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_23 : Ref sig .tc := ⟨.hbm, 154, rfl⟩
abbrev main_call4_v0 : Ref sig .tc := ⟨.hbm, 155, rfl⟩
abbrev main_call4_v1 : Ref sig .tc := ⟨.hbm, 156, rfl⟩
abbrev main_v108 : Ref sig .tc := ⟨.hbm, 157, rfl⟩
abbrev main_c_24 : Ref sig .tc := ⟨.hbm, 158, rfl⟩
abbrev main_v109 : Ref sig .tc := ⟨.hbm, 159, rfl⟩
abbrev main_v110 : Ref sig .tc := ⟨.hbm, 160, rfl⟩
abbrev main_c_25 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_26 : Ref sig .tc := ⟨.hbm, 168, rfl⟩
abbrev main_v117 : Ref sig .tc := ⟨.hbm, 169, rfl⟩
abbrev main_v118 : Ref sig .tc := ⟨.hbm, 170, rfl⟩
abbrev main_c_27 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_c_28 : Ref sig .tc := ⟨.hbm, 179, rfl⟩
abbrev main_v126 : Ref sig .tc := ⟨.hbm, 180, rfl⟩
abbrev main_v127 : Ref sig .tc := ⟨.hbm, 181, rfl⟩
abbrev main_c_29 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_30 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_call5_cst : Ref sig .tc := ⟨.hbm, 197, rfl⟩
abbrev main_call5_v0 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_31 : Ref sig .tc := ⟨.hbm, 204, rfl⟩
abbrev main_v146 : Ref sig .tc := ⟨.hbm, 205, rfl⟩
abbrev main_v147 : Ref sig .tc := ⟨.hbm, 206, rfl⟩
abbrev main_cst_32 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_33 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_34 : Ref sig .tc := ⟨.hbm, 215, rfl⟩
abbrev main_call6_v0 : Ref sig .tc := ⟨.hbm, 216, rfl⟩
abbrev main_call6_v1 : Ref sig .tc := ⟨.hbm, 217, rfl⟩
abbrev main_v154 : Ref sig .tc := ⟨.hbm, 218, rfl⟩
abbrev main_c_35 : Ref sig .tc := ⟨.hbm, 219, rfl⟩
abbrev main_v155 : Ref sig .tc := ⟨.hbm, 220, rfl⟩
abbrev main_v156 : Ref sig .tc := ⟨.hbm, 221, rfl⟩
abbrev main_c_36 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_c_37 : Ref sig .tc := ⟨.hbm, 229, rfl⟩
abbrev main_v163 : Ref sig .tc := ⟨.hbm, 230, rfl⟩
abbrev main_v164 : Ref sig .tc := ⟨.hbm, 231, rfl⟩
abbrev main_c_38 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_c_39 : Ref sig .tc := ⟨.hbm, 240, rfl⟩
abbrev main_v172 : Ref sig .tc := ⟨.hbm, 241, rfl⟩
abbrev main_v173 : Ref sig .tc := ⟨.hbm, 242, rfl⟩
abbrev main_c_40 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_cst_41 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_call7_cst : Ref sig .tc := ⟨.hbm, 258, rfl⟩
abbrev main_call7_v0 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_cst_42 : Ref sig .tc := ⟨.hbm, 265, rfl⟩
abbrev main_v192 : Ref sig .tc := ⟨.hbm, 266, rfl⟩
abbrev main_v193 : Ref sig .tc := ⟨.hbm, 267, rfl⟩
abbrev main_cst_43 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_cst_44 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_cst_45 : Ref sig .tc := ⟨.hbm, 276, rfl⟩
abbrev main_call8_v0 : Ref sig .tc := ⟨.hbm, 277, rfl⟩
abbrev main_call8_v1 : Ref sig .tc := ⟨.hbm, 278, rfl⟩
abbrev main_v200 : Ref sig .tc := ⟨.hbm, 279, rfl⟩
abbrev main_c_46 : Ref sig .tc := ⟨.hbm, 280, rfl⟩
abbrev main_v201 : Ref sig .tc := ⟨.hbm, 281, rfl⟩
abbrev main_v202 : Ref sig .tc := ⟨.hbm, 282, rfl⟩
abbrev main_c_47 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_c_48 : Ref sig .tc := ⟨.hbm, 290, rfl⟩
abbrev main_v209 : Ref sig .tc := ⟨.hbm, 291, rfl⟩
abbrev main_v210 : Ref sig .tc := ⟨.hbm, 292, rfl⟩
abbrev main_c_49 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_c_50 : Ref sig .tc := ⟨.hbm, 301, rfl⟩
abbrev main_v218 : Ref sig .tc := ⟨.hbm, 302, rfl⟩
abbrev main_v219 : Ref sig .tc := ⟨.hbm, 303, rfl⟩
abbrev main_c_51 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_cst_52 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S20000_S420000_d0 : Shape.Concatenates [S400000, S20000] S420000 0
  bcast_S_S20000 : S_.BroadcastsInDim S20000 (![] : Fin 0 → Fin S20000.rank)
  bcast_S420000_S420000x1_0 : S420000.BroadcastsInDim S420000x1 (![0] : Fin 1 → Fin S420000x1.rank)
  bcast_S_S420000 : S_.BroadcastsInDim S420000 (![] : Fin 0 → Fin S420000.rank)
  bcast_S420000x1_S420000x512_0_1 : S420000x1.BroadcastsInDim S420000x512 (![0, 1] : Fin 2 → Fin S420000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S420000x1_S420000x256_0_1 : S420000x1.BroadcastsInDim S420000x256 (![0, 1] : Fin 2 → Fin S420000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x1 : S_.BroadcastsInDim S20000x1 (![] : Fin 0 → Fin S20000x1.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  dot_S20000x512_S512x512_S20000x512_1_0_0_1_n_n_wf : DotDims.WF S20000x512 S512x512 S20000x512 [1] [0] [0] [1] [] []
  scatter_S20000_S420000x1_S420000_n_0_0_1_wf : ScatterDims.WF S20000 S420000x1 S420000 [] [0] [0] 1
  gather_S20000_S420000x1_S420000_n_0_n_n_0_1_1_wf : GatherDims.WF S20000 S420000x1 S420000 [] [0] [] [0] [] 1 ![1]
  gather_S20000x512_S420000x1_S420000x512_1_0_n_n_0_1_1512_wf : GatherDims.WF S20000x512 S420000x1 S420000x512 [1] [0] [] [0] [] 1 ![1, 512]
  scatter_S20000x512_S420000x1_S420000x512_1_0_0_1_wf : ScatterDims.WF S20000x512 S420000x1 S420000x512 [1] [0] [0] 1
  dot_S20000x512_S512x256_S20000x256_1_0_0_1_n_n_wf : DotDims.WF S20000x512 S512x256 S20000x256 [1] [0] [0] [1] [] []
  gather_S20000x256_S420000x1_S420000x256_1_0_n_n_0_1_1256_wf : GatherDims.WF S20000x256 S420000x1 S420000x256 [1] [0] [] [0] [] 1 ![1, 256]
  scatter_S20000x256_S420000x1_S420000x256_1_0_0_1_wf : ScatterDims.WF S20000x256 S420000x1 S420000x256 [1] [0] [0] 1
  dot_S20000x256_S256x1_S20000x1_1_0_0_1_n_n_wf : DotDims.WF S20000x256 S256x1 S20000x1 [1] [0] [0] [1] [] []
  gather_S20000x1_S420000x1_S420000x1_1_0_n_n_0_1_11_wf : GatherDims.WF S20000x1 S420000x1 S420000x1 [1] [0] [] [0] [] 1 ![1, 1]
  scatter_S20000x1_S420000x1_S420000x1_1_0_0_1_wf : ScatterDims.WF S20000x1 S420000x1 S420000x1 [1] [0] [0] 1

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S20000_S420000x1_S420000_n_0_0_1 : ScatterDims S20000 S420000x1 S420000 where
  updateWindowDims := []
  insertedWindowDims := [0]
  scatterDimsToOperandDims := [0]
  indexVectorDim := 1
  wf := scatter_S20000_S420000x1_S420000_n_0_0_1_wf
def gather_S20000_S420000x1_S420000_n_0_n_n_0_1_1 : GatherDims S20000 S420000x1 S420000 where
  offsetDims := []
  collapsedSliceDims := [0]
  operandBatchingDims := []
  startIndicesBatchingDims := []
  startIndexMap := [0]
  indexVectorDim := 1
  sliceSizes := ![1]
  wf := gather_S20000_S420000x1_S420000_n_0_n_n_0_1_1_wf
def gather_S20000x512_S420000x1_S420000x512_1_0_n_n_0_1_1512 : GatherDims S20000x512 S420000x1 S420000x512 where
  offsetDims := [1]
  collapsedSliceDims := [0]
  operandBatchingDims := []
  startIndicesBatchingDims := []
  startIndexMap := [0]
  indexVectorDim := 1
  sliceSizes := ![1, 512]
  wf := gather_S20000x512_S420000x1_S420000x512_1_0_n_n_0_1_1512_wf
def scatter_S20000x512_S420000x1_S420000x512_1_0_0_1 : ScatterDims S20000x512 S420000x1 S420000x512 where
  updateWindowDims := [1]
  insertedWindowDims := [0]
  scatterDimsToOperandDims := [0]
  indexVectorDim := 1
  wf := scatter_S20000x512_S420000x1_S420000x512_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def gather_S20000x256_S420000x1_S420000x256_1_0_n_n_0_1_1256 : GatherDims S20000x256 S420000x1 S420000x256 where
  offsetDims := [1]
  collapsedSliceDims := [0]
  operandBatchingDims := []
  startIndicesBatchingDims := []
  startIndexMap := [0]
  indexVectorDim := 1
  sliceSizes := ![1, 256]
  wf := gather_S20000x256_S420000x1_S420000x256_1_0_n_n_0_1_1256_wf
def scatter_S20000x256_S420000x1_S420000x256_1_0_0_1 : ScatterDims S20000x256 S420000x1 S420000x256 where
  updateWindowDims := [1]
  insertedWindowDims := [0]
  scatterDimsToOperandDims := [0]
  indexVectorDim := 1
  wf := scatter_S20000x256_S420000x1_S420000x256_1_0_0_1_wf
def dot_S20000x256_S256x1_S20000x1_1_0_0_1_n_n : DotDims S20000x256 S256x1 S20000x1 where
  lhsContracting := [1]
  rhsContracting := [0]
  lhsNonContracting := [0]
  rhsNonContracting := [1]
  lhsBatch := []
  rhsBatch := []
  wf := dot_S20000x256_S256x1_S20000x1_1_0_0_1_n_n_wf
def gather_S20000x1_S420000x1_S420000x1_1_0_n_n_0_1_11 : GatherDims S20000x1 S420000x1 S420000x1 where
  offsetDims := [1]
  collapsedSliceDims := [0]
  operandBatchingDims := []
  startIndicesBatchingDims := []
  startIndexMap := [0]
  indexVectorDim := 1
  sliceSizes := ![1, 1]
  wf := gather_S20000x1_S420000x1_S420000x1_1_0_n_n_0_1_11_wf
def scatter_S20000x1_S420000x1_S420000x1_1_0_0_1 : ScatterDims S20000x1 S420000x1 S420000x1 where
  updateWindowDims := [1]
  insertedWindowDims := [0]
  scatterDimsToOperandDims := [0]
  indexVectorDim := 1
  wf := scatter_S20000x1_S420000x1_S420000x1_1_0_0_1_wf

class Facts : Prop extends Facts₀ where

variable [Facts]
-- ==== Proof.KernelRun.lean ====
/-
  The idealized kernel program's run, with its result named.

  The program alternates stretches of host operations with five row-tiled products.  Along any weakly fair
  execution the contents of every buffer at each boundary between two such pieces are a fold from the launch
  memory: a host stretch applies its operations in order, a tiled product leaves its output array at what its
  write-backs put there and every other buffer as it found it.  The run therefore ends with every buffer —
  the result `%120` among them — at the last fold's value, and with the thirteen argument arrays as launched.
  Here that is stated with the result's buffer named; what the fold's value IS, as a function of the
  arguments, is the business of the modules that read it stretch by stretch.
-/
import proofs.«166896_j16209206575854_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's
    contents and every argument array as launched. -/
theorem run_result : θ_run defs (onTc (τ := τ) (main (F := F))) ⟨m, fun _ => 0, ρ⟩ (fun r => ∀ c : Dev nD,
      r.2.mem ((c.tc : Thread nD τ).loc main_v120) = W21 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v120 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c)⟩)

end Cert.KernelIdeal.Named

end
-- ==== Proof.Args.lean ====
/-
  The thirteen argument arrays of the program, as a core finds them at launch, each under a short name:
  `A0` the `[20000, 512]` node features, `A1` the `[2, 400000]` edge list (row 0 the sources, row 1 the
  destinations), `A2` the `[400000]` edge weights, and `A3 … A12` the five layers' weights and biases in
  order (`A3, A4` layer 1's `[512, 512]` and `[512]`, …, `A11, A12` layer 5's `[256, 1]` and `[1]`).
-/
import proofs.«166896_j16209206575854_1_alg».proof.KernelIdeal
import Idealize.ShloMosaic.PureOps.Ideal

noncomputable section

namespace Cert.KernelIdeal.Args

open Cert.KernelIdeal Idealize.ShloMosaic Idealize.ShloMosaic.TcCoe Idealize.SL.Sem

variable (m : (ℓ : Loc nD τ sig) → Buf (Elt Ideal) ℓ) (c : Dev nD)

abbrev A0 : (⟨S20000x512, .f32⟩ : BufTy).Contents (Elt Ideal) := m ((c : Thread nD τ).loc main_arg0)
abbrev A1 : (⟨S2x400000, .i32⟩ : BufTy).Contents (Elt Ideal) := m ((c : Thread nD τ).loc main_arg1)
abbrev A2 : (⟨S400000, .f32⟩ : BufTy).Contents (Elt Ideal) := m ((c : Thread nD τ).loc main_arg2)
abbrev A3 : (⟨S512x512, .f32⟩ : BufTy).Contents (Elt Ideal) := m ((c : Thread nD τ).loc main_arg3)
abbrev A4 : (⟨S512, .f32⟩ : BufTy).Contents (Elt Ideal) := m ((c : Thread nD τ).loc main_arg4)
abbrev A5 : (⟨S512x512, .f32⟩ : BufTy).Contents (Elt Ideal) := m ((c : Thread nD τ).loc main_arg5)
abbrev A6 : (⟨S512, .f32⟩ : BufTy).Contents (Elt Ideal) := m ((c : Thread nD τ).loc main_arg6)
abbrev A7 : (⟨S512x512, .f32⟩ : BufTy).Contents (Elt Ideal) := m ((c : Thread nD τ).loc main_arg7)
abbrev A8 : (⟨S512, .f32⟩ : BufTy).Contents (Elt Ideal) := m ((c : Thread nD τ).loc main_arg8)
abbrev A9 : (⟨S512x256, .f32⟩ : BufTy).Contents (Elt Ideal) := m ((c : Thread nD τ).loc main_arg9)
abbrev A10 : (⟨S256, .f32⟩ : BufTy).Contents (Elt Ideal) := m ((c : Thread nD τ).loc main_arg10)
abbrev A11 : (⟨S256x1, .f32⟩ : BufTy).Contents (Elt Ideal) := m ((c : Thread nD τ).loc main_arg11)
abbrev A12 : (⟨S1, .f32⟩ : BufTy).Contents (Elt Ideal) := m ((c : Thread nD τ).loc main_arg12)

end Cert.KernelIdeal.Args

end
-- ==== Proof.Carry.lean ====
/-
  Buffers that a layer leaves alone.

  Between two consecutive tiled products the program runs three short stretches of host operations (one layer's
  gather, scaling, scatter-add, bias, ReLU and the next weight's change of format); the product itself rewrites
  only its output array.  Each stretch writes a known, literal set of buffers, listed here layer by layer.  Any
  buffer outside a layer's list and outside the preceding product's three arrays therefore holds, at the next
  product's entry, exactly what it held at the previous product's entry.  This is how the edge lists, the edge
  normalisation and the not-yet-used weights and biases, all computed or given before the first product, reach
  the layers that read them.
-/
import proofs.«166896_j16209206575854_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe
open Idealize.SL Idealize.SL.Sem

variable {F : FTy → Type} [FloatOps F]

/-! ## What each layer's host stretches write -/

/-- The buffers written by the host stretches before the first product. -/
abbrev written0 : List (Ref sig .tc) :=
  [main_v0, main_v1, main_v2, main_v3, main_v4, main_v5, main_v6, main_cst, main_v7, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_v23, main_c_4, main_v24, main_v25, main_c_5, main_v26, main_v27, main_v28, main_v29, main_v30, main_v31, main_v32, main_v33]
theorem hostOps0_writes : (hostOps0 : List (HloOp τ sig (Elt F))).Forall fun op => op.writes ⊆ ((written0).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_writes : (hostOps0_1 : List (HloOp τ sig (Elt F))).Forall fun op => op.writes ⊆ ((written0).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_2_writes : (hostOps0_2 : List (HloOp τ sig (Elt F))).Forall fun op => op.writes ⊆ ((written0).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers written by the host stretches between products 0 and 1. -/
abbrev written1 : List (Ref sig .tc) :=
  [main_c_6, main_v35, main_v36, main_c_7, main_v37, main_v38, main_v39, main_v40, main_v41, main_v42, main_v43, main_cst_8, main_v44, main_v45, main_v46, main_v47, main_v48, main_v49, main_call1_cst, main_call1_v0, main_v50, main_v51]
theorem hostOps1_writes : (hostOps1 : List (HloOp τ sig (Elt F))).Forall fun op => op.writes ⊆ ((written1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_1_writes : (hostOps1_1 : List (HloOp τ sig (Elt F))).Forall fun op => op.writes ⊆ ((written1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_2_writes : (hostOps1_2 : List (HloOp τ sig (Elt F))).Forall fun op => op.writes ⊆ ((written1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers written by the host stretches between products 1 and 2. -/
abbrev written2 : List (Ref sig .tc) :=
  [main_c_9, main_v53, main_v54, main_c_10, main_v55, main_v56, main_v57, main_v58, main_v59, main_v60, main_v61, main_cst_11, main_v62, main_v63, main_v64, main_v65, main_v66, main_v67, main_call2_cst, main_call2_v0, main_v68, main_v69]
theorem hostOps2_writes : (hostOps2 : List (HloOp τ sig (Elt F))).Forall fun op => op.writes ⊆ ((written2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_1_writes : (hostOps2_1 : List (HloOp τ sig (Elt F))).Forall fun op => op.writes ⊆ ((written2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_2_writes : (hostOps2_2 : List (HloOp τ sig (Elt F))).Forall fun op => op.writes ⊆ ((written2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers written by the host stretches between products 2 and 3. -/
abbrev written3 : List (Ref sig .tc) :=
  [main_c_12, main_v71, main_v72, main_c_13, main_v73, main_v74, main_v75, main_v76, main_v77, main_v78, main_v79, main_cst_14, main_v80, main_v81, main_v82, main_v83, main_v84, main_v85, main_call3_cst, main_call3_v0, main_v86, main_v87]
theorem hostOps3_writes : (hostOps3 : List (HloOp τ sig (Elt F))).Forall fun op => op.writes ⊆ ((written3).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_writes : (hostOps3_1 : List (HloOp τ sig (Elt F))).Forall fun op => op.writes ⊆ ((written3).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_2_writes : (hostOps3_2 : List (HloOp τ sig (Elt F))).Forall fun op => op.writes ⊆ ((written3).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers written by the host stretches between products 3 and 4. -/
abbrev written4 : List (Ref sig .tc) :=
  [main_c_15, main_v89, main_v90, main_c_16, main_v91, main_v92, main_v93, main_v94, main_v95, main_v96, main_v97, main_cst_17, main_v98, main_v99, main_v100, main_v101, main_v102, main_v103, main_call4_cst, main_call4_v0, main_v104, main_v105]
theorem hostOps4_writes : (hostOps4 : List (HloOp τ sig (Elt F))).Forall fun op => op.writes ⊆ ((written4).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_1_writes : (hostOps4_1 : List (HloOp τ sig (Elt F))).Forall fun op => op.writes ⊆ ((written4).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_2_writes : (hostOps4_2 : List (HloOp τ sig (Elt F))).Forall fun op => op.writes ⊆ ((written4).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers written by the host stretches after the last product. -/
abbrev written5 : List (Ref sig .tc) :=
  [main_c_18, main_v107, main_v108, main_c_19, main_v109, main_v110, main_v111, main_v112, main_v113, main_v114, main_cst_20, main_v115, main_v116, main_v117, main_v118, main_v119, main_v120]
theorem hostOps5_writes : (hostOps5 : List (HloOp τ sig (Elt F))).Forall fun op => op.writes ⊆ ((written5).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg)

/-! ## What is kept -/

/-- A buffer the first stretches do not write holds its launch contents at the first product's entry. -/
theorem kept_to_entry0 (c : Dev nD) (r : Ref sig .tc) (h : r ∉ (written0 : List (Ref sig .tc))) :
    W3 m ρ c (Proc.devRef .tc r) = m ((c : Thread nD τ).loc r) :=
  (StableHlo.after_of_writes_sub hostOps0_2 _ hostOps0_2_writes h).trans
    ((StableHlo.after_of_writes_sub hostOps0_1 _ hostOps0_1_writes h).trans
      (StableHlo.after_of_writes_sub hostOps0 _ hostOps0_writes h))

/-- A buffer that is none of product 0's arrays and that layer 1's stretches do not write holds at product 1's
    entry what it held at product 0's entry. -/
theorem kept_entry0_entry1 (c : Dev nD) (r : Ref sig .tc) (ha : ∀ w, Pipeline.arrRef spec0 w ≠ r)
    (h : r ∉ (written1 : List (Ref sig .tc))) :
    W7 m ρ c (Proc.devRef .tc r) = W3 m ρ c (Proc.devRef .tc r) :=
  (StableHlo.after_of_writes_sub hostOps1_2 _ hostOps1_2_writes h).trans
    ((StableHlo.after_of_writes_sub hostOps1_1 _ hostOps1_1_writes h).trans
      ((StableHlo.after_of_writes_sub hostOps1 _ hostOps1_writes h).trans (W4_of_ne m ρ c r ha)))

/-- A buffer that is none of product 1's arrays and that layer 2's stretches do not write holds at product 2's
    entry what it held at product 1's entry. -/
theorem kept_entry1_entry2 (c : Dev nD) (r : Ref sig .tc) (ha : ∀ w, Pipeline.arrRef spec1 w ≠ r)
    (h : r ∉ (written2 : List (Ref sig .tc))) :
    W11 m ρ c (Proc.devRef .tc r) = W7 m ρ c (Proc.devRef .tc r) :=
  (StableHlo.after_of_writes_sub hostOps2_2 _ hostOps2_2_writes h).trans
    ((StableHlo.after_of_writes_sub hostOps2_1 _ hostOps2_1_writes h).trans
      ((StableHlo.after_of_writes_sub hostOps2 _ hostOps2_writes h).trans (W8_of_ne m ρ c r ha)))

/-- A buffer that is none of product 2's arrays and that layer 3's stretches do not write holds at product 3's
    entry what it held at product 2's entry. -/
theorem kept_entry2_entry3 (c : Dev nD) (r : Ref sig .tc) (ha : ∀ w, Pipeline.arrRef spec2 w ≠ r)
    (h : r ∉ (written3 : List (Ref sig .tc))) :
    W15 m ρ c (Proc.devRef .tc r) = W11 m ρ c (Proc.devRef .tc r) :=
  (StableHlo.after_of_writes_sub hostOps3_2 _ hostOps3_2_writes h).trans
    ((StableHlo.after_of_writes_sub hostOps3_1 _ hostOps3_1_writes h).trans
      ((StableHlo.after_of_writes_sub hostOps3 _ hostOps3_writes h).trans (W12_of_ne m ρ c r ha)))

/-- A buffer that is none of product 3's arrays and that layer 4's stretches do not write holds at product 4's
    entry what it held at product 3's entry. -/
theorem kept_entry3_entry4 (c : Dev nD) (r : Ref sig .tc) (ha : ∀ w, Pipeline.arrRef spec3 w ≠ r)
    (h : r ∉ (written4 : List (Ref sig .tc))) :
    W19 m ρ c (Proc.devRef .tc r) = W15 m ρ c (Proc.devRef .tc r) :=
  (StableHlo.after_of_writes_sub hostOps4_2 _ hostOps4_2_writes h).trans
    ((StableHlo.after_of_writes_sub hostOps4_1 _ hostOps4_1_writes h).trans
      ((StableHlo.after_of_writes_sub hostOps4 _ hostOps4_writes h).trans (W16_of_ne m ρ c r ha)))

/-! ## Chains: from the first product's entry, and from the launch, to a later product's entry -/

theorem entry0_to_entry1 (c : Dev nD) (r : Ref sig .tc) (a0 : ∀ w, Pipeline.arrRef spec0 w ≠ r) (h1 : r ∉ (written1 : List (Ref sig .tc))) :
    W7 m ρ c (Proc.devRef .tc r) = W3 m ρ c (Proc.devRef .tc r) :=
  kept_entry0_entry1 m ρ c r a0 h1
theorem launch_to_entry1 (c : Dev nD) (r : Ref sig .tc) (h0 : r ∉ (written0 : List (Ref sig .tc))) (a0 : ∀ w, Pipeline.arrRef spec0 w ≠ r) (h1 : r ∉ (written1 : List (Ref sig .tc))) :
    W7 m ρ c (Proc.devRef .tc r) = m ((c : Thread nD τ).loc r) :=
  (entry0_to_entry1 m ρ c r a0 h1).trans (kept_to_entry0 m ρ c r h0)

theorem entry0_to_entry2 (c : Dev nD) (r : Ref sig .tc) (a0 : ∀ w, Pipeline.arrRef spec0 w ≠ r) (h1 : r ∉ (written1 : List (Ref sig .tc))) (a1 : ∀ w, Pipeline.arrRef spec1 w ≠ r) (h2 : r ∉ (written2 : List (Ref sig .tc))) :
    W11 m ρ c (Proc.devRef .tc r) = W3 m ρ c (Proc.devRef .tc r) :=
  (kept_entry1_entry2 m ρ c r a1 h2).trans (kept_entry0_entry1 m ρ c r a0 h1)
theorem launch_to_entry2 (c : Dev nD) (r : Ref sig .tc) (h0 : r ∉ (written0 : List (Ref sig .tc))) (a0 : ∀ w, Pipeline.arrRef spec0 w ≠ r) (h1 : r ∉ (written1 : List (Ref sig .tc))) (a1 : ∀ w, Pipeline.arrRef spec1 w ≠ r) (h2 : r ∉ (written2 : List (Ref sig .tc))) :
    W11 m ρ c (Proc.devRef .tc r) = m ((c : Thread nD τ).loc r) :=
  (entry0_to_entry2 m ρ c r a0 h1 a1 h2).trans (kept_to_entry0 m ρ c r h0)

theorem entry0_to_entry3 (c : Dev nD) (r : Ref sig .tc) (a0 : ∀ w, Pipeline.arrRef spec0 w ≠ r) (h1 : r ∉ (written1 : List (Ref sig .tc))) (a1 : ∀ w, Pipeline.arrRef spec1 w ≠ r) (h2 : r ∉ (written2 : List (Ref sig .tc))) (a2 : ∀ w, Pipeline.arrRef spec2 w ≠ r) (h3 : r ∉ (written3 : List (Ref sig .tc))) :
    W15 m ρ c (Proc.devRef .tc r) = W3 m ρ c (Proc.devRef .tc r) :=
  (kept_entry2_entry3 m ρ c r a2 h3).trans ((kept_entry1_entry2 m ρ c r a1 h2).trans (kept_entry0_entry1 m ρ c r a0 h1))
theorem launch_to_entry3 (c : Dev nD) (r : Ref sig .tc) (h0 : r ∉ (written0 : List (Ref sig .tc))) (a0 : ∀ w, Pipeline.arrRef spec0 w ≠ r) (h1 : r ∉ (written1 : List (Ref sig .tc))) (a1 : ∀ w, Pipeline.arrRef spec1 w ≠ r) (h2 : r ∉ (written2 : List (Ref sig .tc))) (a2 : ∀ w, Pipeline.arrRef spec2 w ≠ r) (h3 : r ∉ (written3 : List (Ref sig .tc))) :
    W15 m ρ c (Proc.devRef .tc r) = m ((c : Thread nD τ).loc r) :=
  (entry0_to_entry3 m ρ c r a0 h1 a1 h2 a2 h3).trans (kept_to_entry0 m ρ c r h0)

theorem entry0_to_entry4 (c : Dev nD) (r : Ref sig .tc) (a0 : ∀ w, Pipeline.arrRef spec0 w ≠ r) (h1 : r ∉ (written1 : List (Ref sig .tc))) (a1 : ∀ w, Pipeline.arrRef spec1 w ≠ r) (h2 : r ∉ (written2 : List (Ref sig .tc))) (a2 : ∀ w, Pipeline.arrRef spec2 w ≠ r) (h3 : r ∉ (written3 : List (Ref sig .tc))) (a3 : ∀ w, Pipeline.arrRef spec3 w ≠ r) (h4 : r ∉ (written4 : List (Ref sig .tc))) :
    W19 m ρ c (Proc.devRef .tc r) = W3 m ρ c (Proc.devRef .tc r) :=
  (kept_entry3_entry4 m ρ c r a3 h4).trans ((kept_entry2_entry3 m ρ c r a2 h3).trans ((kept_entry1_entry2 m ρ c r a1 h2).trans (kept_entry0_entry1 m ρ c r a0 h1)))
theorem launch_to_entry4 (c : Dev nD) (r : Ref sig .tc) (h0 : r ∉ (written0 : List (Ref sig .tc))) (a0 : ∀ w, Pipeline.arrRef spec0 w ≠ r) (h1 : r ∉ (written1 : List (Ref sig .tc))) (a1 : ∀ w, Pipeline.arrRef spec1 w ≠ r) (h2 : r ∉ (written2 : List (Ref sig .tc))) (a2 : ∀ w, Pipeline.arrRef spec2 w ≠ r) (h3 : r ∉ (written3 : List (Ref sig .tc))) (a3 : ∀ w, Pipeline.arrRef spec3 w ≠ r) (h4 : r ∉ (written4 : List (Ref sig .tc))) :
    W19 m ρ c (Proc.devRef .tc r) = m ((c : Thread nD τ).loc r) :=
  (entry0_to_entry4 m ρ c r a0 h1 a1 h2 a2 h3 a3 h4).trans (kept_to_entry0 m ρ c r h0)

end Cert.KernelIdeal.Carry

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibRowProduct.lean ====
/-
  The dense product of two matrices of extended reals, as one whole-array function.

  For `X : [a, K]` and `W : [K, b]` the product is, at the entry `(r, q)`, the sum over `k < K` of
  `X (r, k) · W (k, q)` (`rowProduct`).  Sums and products on the extended reals are those of a commutative
  monoid, so the order and grouping of the sum never matter and no entry need be finite.

  Two readings of that one function are joined here, for any extents and any float formats of the operands:
  • the host's `dot_general` contracting the one shared axis IS the product, as whole arrays
    (`dotGeneral_eq_rowProduct`) — the dimension numbers enter only through four coordinate facts (which operand
    coordinate is the output's, which is the contraction's), so the lemma serves any record;
  • a product into a zero accumulator whose left operand has first passed through a change of float format
    (the identity on the extended reals) is, at any entry, the same sum (`matmul_trunc_entry`).
  Since entry `(r, q)` reads only row `r` of `X`, a row block of the product is the product of the same row
  block of `X` with `W`: a grid over row blocks computes the product block by block, and a certificate reads
  the blocks' entries with the second lemma and the whole array with the first.
  (It imports LibRowOps.lean, which sits beside it.)
-/
import proofs.«166896_j16209206575854_1_alg».proof.Proof.LibRowOps

noncomputable section

namespace Cert.RowProduct

open Idealize.ShloMosaic Idealize.ShloMosaic.ValueIdx
open scoped BigOperators

/-- The matrix product `X · W`, entry by entry: `(X · W) (r, q) = ∑ k, X (r, k) · W (k, q)`. -/
def rowProduct {a K b : ℕ} {φ₁ φ₂ : FTy} (x : FVec Ideal ⟨2, ![a, K]⟩ φ₁) (w : FVec Ideal ⟨2, ![K, b]⟩ φ₂) :
    FVec Ideal ⟨2, ![a, b]⟩ .f32 :=
  fun i => ∑ k : Fin K, x (ix2 (i 0) k) * w (ix2 k (i 1))

theorem rowProduct_entry {a K b : ℕ} {φ₁ φ₂ : FTy} (x : FVec Ideal ⟨2, ![a, K]⟩ φ₁) (w : FVec Ideal ⟨2, ![K, b]⟩ φ₂)
    (r : Fin a) (q : Fin b) : rowProduct x w (ix2 r q) = ∑ k : Fin K, x (ix2 r k) * w (ix2 k q) := rfl

/-- The host's product contracting the shared axis is the product. -/
theorem dotGeneral_eq_rowProduct {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x : FVec Ideal ⟨2, ![a, K]⟩ φ₁) (w : FVec Ideal ⟨2, ![K, b]⟩ φ₂) :
    Host.dotGeneral (F := Ideal) d prec x w = rowProduct x w := by
  funext i
  obtain ⟨r, q, rfl⟩ : ∃ (r : Fin a) (q : Fin b), i = ix2 r q := ⟨i 0, i 1, eq_ix2 i⟩
  exact Cert.RowOps.dotGeneral_entry d hr hs hl0 hl1 hr0 hr1 prec x w r q

/-- A product into a zero accumulator whose left operand was first narrowed to another float format: on the
    extended reals the narrowing is the identity, so the entry is the plain sum over the contracted axis. -/
theorem matmul_trunc_entry {a K b : ℕ} {φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (x : FVec Ideal ⟨2, ![a, K]⟩ .f32) (w : FVec Ideal ⟨2, ![K, b]⟩ φ₂) (h : FTy.bits .bf16 < FTy.bits .f32)
    (j : (⟨2, ![a, b]⟩ : Shape).Idx) :
    matmul d none (truncf .bf16 x h) w (constant (F := Ideal) ⟨2, ![a, b]⟩ .f32 0x00000000#32) j
      = ∑ k : Fin K, x (ix2 (j 0) k) * w (ix2 k (j 1)) := by
  obtain ⟨r, q, rfl⟩ : ∃ (r : Fin a) (q : Fin b), j = ix2 r q := ⟨j 0, j 1, eq_ix2 j⟩
  exact (Cert.RowOps.matmul_zero_entry d hr hs hl0 hl1 hr0 hr1 none (truncf .bf16 x h) w r q).trans
    (Finset.sum_congr rfl fun k _ => rfl)

end Cert.RowProduct

end
-- ==== Proof.Tiles0.lean ====
/-
  Region 0 of the program: a grid of ten points, point `t` taking rows `[2000·t, 2000·t + 2000)` of a
  `[20000, 512]` array `X` and the whole of a `[512, 512]` array `W`, and writing rows `[2000·t, 2000·t + 2000)` of
  the `[20000, 512]` output.  The tile's body is one product into a zero accumulator, so at the entry `(p, q)` of
  the tile it is `∑ k, X (2000·t + p, k) · W (k, q)`: entry `(2000·t + p, q)` of `X · W`.  Row `r` of the output lies
  in the block of point `r / 2000` and of no other, every point writes its block back, and so the output array
  after the region is the whole product `X · W` of the two arrays as the region found them.
-/
import proofs.«166896_j16209206575854_1_alg».proof.Proof.Gen.KernelIdeal.Frame
import proofs.«166896_j16209206575854_1_alg».proof.Proof.LibRowProduct

set_option maxRecDepth 16384

noncomputable section

namespace Cert.KernelIdeal.Tiles0

open Cert.KernelIdeal Cert.KernelIdeal.Gen Cert.RowProduct
open Idealize.ShloMosaic Idealize.ShloMosaic.TcCoe Idealize.ShloMosaic.ValueIdx
open Idealize.SL Idealize.SL.Sem
open Idealize.ShloMosaic.Pipeline (Dat Cfg Window)
open scoped BigOperators

/-! ## The tile's product: which operand coordinate is which -/

theorem lhs_row (i : S2000x512.Idx) (q : dot_S2000x512_S512x512_S2000x512_1_0_0_1_n_n.contr.Idx) : (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_contr (i : S2000x512.Idx) (q : dot_S2000x512_S512x512_S2000x512_1_0_0_1_n_n.contr.Idx) : (dot_S2000x512_S512x512_S2000x512_1_0_0_1_n_n.lhsIdx i q 1).val = (q ⟨0, by decide⟩).val :=
  dot_S2000x512_S512x512_S2000x512_1_0_0_1_n_n.lhsIdx_val_of_single rfl i q
theorem rhs_contr (i : S2000x512.Idx) (q : dot_S2000x512_S512x512_S2000x512_1_0_0_1_n_n.contr.Idx) : (dot_S2000x512_S512x512_S2000x512_1_0_0_1_n_n.rhsIdx i q 0).val = (q ⟨0, by decide⟩).val :=
  dot_S2000x512_S512x512_S2000x512_1_0_0_1_n_n.rhsIdx_val_of_single rfl i q
theorem rhs_col (i : S2000x512.Idx) (q : dot_S2000x512_S512x512_S2000x512_1_0_0_1_n_n.contr.Idx) : (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The body's one stored value at an entry of the tile: the sum over the contracted axis of the tile's row of
    `X` against the column of `W` (the narrowing of `X`'s format and the casts of a shape to itself are
    identities). -/
theorem tile_entry (x0 : FVec Ideal S2000x512 .f32) (x1 : FVec Ideal S512x512 .bf16) (j : S2000x512.Idx) :
    k0_pay1 (F := Ideal) x0 x1 j = ∑ k : Fin 512, x0 (ix2 (j 0) k) * x1 (ix2 k (j 1)) := by
  unfold k0_pay1
  simp only [shapeCast_self]
  exact matmul_trunc_entry dot_S2000x512_S512x512_S2000x512_1_0_0_1_n_n rfl rfl lhs_row lhs_contr rhs_contr rhs_col x0 x1 _ j

/-! ## From the tiles to the array -/

theorem zero_offsets : (![0, 0] : Fin 2 → Nat) = fun _ => 0 := funext fun a => by fin_cases a <;> rfl

/-- The printed index maps over the grid: the row-tiled windows sit at block row `t`, block column `0`; the
    second operand's one block is at `(0, 0)` at every point. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the two arrays as the region finds them. -/
theorem written_back (c : Dev nD) (t : Fin cfg0.N) :
    (dat0 (F := Ideal) V c).flushed 2 t
      = ((cfg0.win 2).blk t).view.read (Elt Ideal) (rowProduct (φ₁ := .f32) (φ₂ := .bf16) (V c main_arg0) (V c main_v33)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x512) zero_offsets]
  obtain ⟨e00, e01, e10, e11, e20, e21⟩ := block_indices t
  funext j
  refine (tile_entry (iblk0 V c 0 t) (iblk0 V c 1 t) j).trans ?_
  show _ = rowProduct (φ₁ := .f32) (φ₂ := .bf16) (V c main_arg0) (V c main_v33) (((cfg0.win 2).blk t).view.emb j)
  unfold rowProduct
  refine Finset.sum_congr rfl fun k _ => ?_
  refine congr (congrArg _ ?_) ?_
  · show V c main_arg0 (((cfg0.win 0).blk t).view.emb (ix2 (j 0) k)) = V c main_arg0 _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_v33 (((cfg0.win 1).blk t).view.emb (ix2 k (j 1))) = V c main_v33 _
    refine congrArg (V c main_v33) (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega

/-- An index of the output array lies in point `t`'s block iff each coordinate lies in the block's range. -/
theorem mem_block (t : Fin cfg0.N) (i : S20000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v34).slice (win0_2.rect t)).set ↔ _
  rw [View.set_slice_whole, Rect.mem_set_unit]
  exact Iff.rfl

/-- Row `r` of the output is in the block of point `r / 2000`, which writes it back. -/
theorem rows_covered (i : S20000x512.Idx) :
    ∃ t : Fin cfg0.N, (cfg0.win 2).flush t = true ∧ i ∈ ((cfg0.win 2).blk t).view.set := by
  have hi0 : (i 0).val < 20000 := (i 0).isLt
  have hi1 : (i 1).val < 512 := (i 1).isLt
  have hN : grid0.N = 10 := N_0
  refine ⟨⟨(i 0).val / 2000, by show (i 0).val / 2000 < grid0.N; omega⟩, flush0_2 _, ?_⟩
  rw [mem_block]
  obtain ⟨e00, e01, e10, e11, e20, e21⟩ := block_indices ⟨(i 0).val / 2000, by show (i 0).val / 2000 < grid0.N; omega⟩
  intro a
  match a with
  | ⟨0, _⟩ =>
    show win0_2.index _ (0 : Fin 2) * 2000 ≤ (i 0).val ∧ (i 0).val < win0_2.index _ (0 : Fin 2) * 2000 + 2000
    rw [e20]; show (i 0).val / 2000 * 2000 ≤ (i 0).val ∧ (i 0).val < (i 0).val / 2000 * 2000 + 2000; omega
  | ⟨1, _⟩ =>
    show win0_2.index _ (1 : Fin 2) * 512 ≤ (i 1).val ∧ (i 1).val < win0_2.index _ (1 : Fin 2) * 512 + 512
    rw [e21]; omega

/-- THE OUTPUT ARRAY after the region: the product of the two input arrays as the region found them. -/
theorem product_array (c : Dev nD) :
    (dat0 (F := Ideal) V c).arrAt 2 cfg0.N
      = rowProduct (φ₁ := .f32) (φ₂ := .bf16) (V c main_arg0) (V c main_v33) :=
  (dat0 (F := Ideal) V c).arrAt_eq_of_cover 2 _ (fun t _ => written_back V c t) rows_covered

end Cert.KernelIdeal.Tiles0

end
-- ==== Proof.RefProducts.lean ====
/-
  The reference's five `x @ W` are whole-array products.

  Each layer of the reference multiplies the `[20000, Fin]` activations by the `[Fin, Fout]` weights with one host
  product contracting the shared axis.  On the extended reals that product is, entry by entry,
  `∑ k, X (r, k) · W (k, q)` — the function `rowProduct` — for the three pairs of extents that occur
  (512 → 512, 512 → 256, 256 → 1).
-/
import proofs.«166896_j16209206575854_1_alg».proof.Proof.Gen.ReferenceIdeal.Read
import proofs.«166896_j16209206575854_1_alg».proof.Proof.LibRowProduct

noncomputable section

namespace Cert.ReferenceIdeal.Products

open Cert.ReferenceIdeal Cert.ReferenceIdeal.Read Cert.RowProduct
open Idealize.ShloMosaic

theorem product_512_512 (x : FVec Ideal S20000x512 .f32) (w : FVec Ideal S512x512 .f32) :
    Host.dotGeneral (F := Ideal) dot_S20000x512_S512x512_S20000x512_1_0_0_1_n_n none x w = rowProduct x w :=
  dotGeneral_eq_rowProduct dot_S20000x512_S512x512_S20000x512_1_0_0_1_n_n rfl rfl
    lhs_main_v4_0 lhs_main_v4_1 rhs_main_v4_0 rhs_main_v4_1 none x w

theorem product_512_256 (x : FVec Ideal S20000x512 .f32) (w : FVec Ideal S512x256 .f32) :
    Host.dotGeneral (F := Ideal) dot_S20000x512_S512x256_S20000x256_1_0_0_1_n_n none x w = rowProduct x w :=
  dotGeneral_eq_rowProduct dot_S20000x512_S512x256_S20000x256_1_0_0_1_n_n rfl rfl
    lhs_main_v142_0 lhs_main_v142_1 rhs_main_v142_0 rhs_main_v142_1 none x w

theorem product_256_1 (x : FVec Ideal S20000x256 .f32) (w : FVec Ideal S256x1 .f32) :
    Host.dotGeneral (F := Ideal) dot_S20000x256_S256x1_S20000x1_1_0_0_1_n_n none x w = rowProduct x w :=
  dotGeneral_eq_rowProduct dot_S20000x256_S256x1_S20000x1_1_0_0_1_n_n rfl rfl
    lhs_main_v188_0 lhs_main_v188_1 rhs_main_v188_0 rhs_main_v188_1 none x w

end Cert.ReferenceIdeal.Products

end
-- ==== Proof.Layer1.lean ====
/-
  Layer 1, read off the run.

  Before the first tiled product the program builds, from the edge list and the edge weights alone, the three
  arrays every layer reads: the source and destination node of each of the 420000 edges (the 400000 given ones
  followed by one self-loop per node), and the symmetric normalisation `d(src) · w · d(dst)` of each edge as a
  `[420000, 1]` column, `d` being the inverse square root of a node's weighted in-degree where that is
  positive and zero elsewhere.  These are, operation for operation, what the reference computes inside its
  first layer.  The first product then multiplies the node features by the first weight matrix (whose change of
  float format is the identity on the extended reals); the tail of the layer gathers the product's rows by
  source, scales them by the normalisation, adds them up by destination, adds the bias and takes the positive
  part — again the reference's operations, on equal values.

  The program is read one stretch of host operations at a time.  The selection `where (deg > 0, rsqrt deg, 0)`
  and the positive part are outlined functions whose three operations pass their operands through a change of
  buffer type that is the identity; each is read by itself, from whatever contents the stretch starts with.
-/
import proofs.«166896_j16209206575854_1_alg».proof.Proof.Gen.KernelIdeal.Frame
import proofs.«166896_j16209206575854_1_alg».proof.Proof.Gen.ReferenceIdeal.Read
import proofs.«166896_j16209206575854_1_alg».proof.Proof.Args
import proofs.«166896_j16209206575854_1_alg».proof.Proof.Carry
import proofs.«166896_j16209206575854_1_alg».proof.Proof.Tiles0
import proofs.«166896_j16209206575854_1_alg».proof.Proof.RefProducts

set_option maxRecDepth 16384

noncomputable section

namespace Cert.Bridge

open Cert.KernelIdeal Cert.KernelIdeal.Gen Cert.KernelIdeal.Carry Cert.KernelIdeal.Args Cert.RowProduct
open Idealize.ShloMosaic Idealize.ShloMosaic.TcCoe Idealize.ShloMosaic.StableHlo
open Idealize.SL Idealize.SL.Sem
open Cert.ReferenceIdeal.Read (val_main_v4 val_main_v6 val_main_v7 val_main_v9 val_main_v14 val_main_v15 val_main_cst_2 val_main_v16 val_main_v33 val_main_v48 val_main_v49)

/-! ## The outlined functions, from any contents -/

section Steps
variable (V : Valuation τ sig (Elt Ideal))

/-- `where (p, x, 0)`: the selection, its third operand the scalar broadcast. -/
theorem where_step : StableHlo.after hostOps0_1 V (Proc.devRef .tc main_v15)
    = select (V (Proc.devRef .tc main_v13)) (V (Proc.devRef .tc main_v14))
        (broadcastInDim S20000 ![] bcast_S_S20000 (id (V (Proc.devRef .tc main_cst_2)))) := by
  after_results
  rfl
theorem where_keeps_src : StableHlo.after hostOps0_1 V (Proc.devRef .tc main_v5) = V (Proc.devRef .tc main_v5) := by
  after_results
theorem where_keeps_dst : StableHlo.after hostOps0_1 V (Proc.devRef .tc main_v6) = V (Proc.devRef .tc main_v6) := by
  after_results
theorem where_keeps_weights : StableHlo.after hostOps0_1 V (Proc.devRef .tc main_v8) = V (Proc.devRef .tc main_v8) := by
  after_results

/-- The positive part of layer 1's sum. -/
theorem relu_step_1 : StableHlo.after hostOps1_1 V (Proc.devRef .tc main_v50)
    = maximumf (V (Proc.devRef .tc main_v49))
        (broadcastInDim S20000x512 ![] bcast_S_S20000x512 (constant (F := Ideal) S_ .f32 0x00000000#32)) := by
  after_results
  rfl

set_option maxHeartbeats 4000000 in
/-- The edges' normalisation from the node factors, the edge lists and the edge weights. -/
theorem norm_step (x1 : (⟨S2x400000, .i32⟩ : BufTy).Contents (Elt Ideal)) (x2 : (⟨S400000, .f32⟩ : BufTy).Contents (Elt Ideal))
    (hd : V (Proc.devRef .tc main_v15) = val_main_v16 (F := Ideal) x1 x2)
    (hs : V (Proc.devRef .tc main_v5) = val_main_v6 (F := Ideal) x1)
    (ht : V (Proc.devRef .tc main_v6) = val_main_v7 (F := Ideal) x1)
    (hw : V (Proc.devRef .tc main_v8) = val_main_v9 (F := Ideal) x2) :
    StableHlo.after hostOps0_2 V (Proc.devRef .tc main_v32) = val_main_v33 (F := Ideal) x1 x2 := by
  after_results_simp
  rw [hd, hs, ht, hw]
  rfl
theorem norm_keeps_src : StableHlo.after hostOps0_2 V (Proc.devRef .tc main_v5) = V (Proc.devRef .tc main_v5) := by
  after_results
theorem norm_keeps_dst : StableHlo.after hostOps0_2 V (Proc.devRef .tc main_v6) = V (Proc.devRef .tc main_v6) := by
  after_results
theorem weight_step_0 : @Eq (FVec Ideal S512x512 .bf16) (StableHlo.after hostOps0_2 V (Proc.devRef .tc main_v33))
    (truncf .bf16 (V (Proc.devRef .tc main_arg3)) bitsLt_bf16_f32) := by
  after_results
theorem weight_step_1 : @Eq (FVec Ideal S512x512 .bf16) (StableHlo.after hostOps1_2 V (Proc.devRef .tc main_v51))
    (truncf .bf16 (V (Proc.devRef .tc main_arg5)) bitsLt_bf16_f32) := by
  after_results
theorem weight_keeps_1 : StableHlo.after hostOps1_2 V (Proc.devRef .tc main_v50) = V (Proc.devRef .tc main_v50) := by
  after_results

end Steps

variable (m : (ℓ : Loc nD τ sig) → Buf (Elt Ideal) ℓ) (ρ : Dev nD → PrngReg) (c : Dev nD)

/-! ## After the first stretch: the edge lists, the edge weights, the degree's sign and inverse root -/

theorem src_first : W1 m ρ c (Proc.devRef .tc main_v5) = val_main_v6 (F := Ideal) (A1 m c) := by
  show StableHlo.after hostOps0 (W0 m ρ c) (Proc.devRef .tc main_v5) = _
  after_results
  rfl
theorem dst_first : W1 m ρ c (Proc.devRef .tc main_v6) = val_main_v7 (F := Ideal) (A1 m c) := by
  show StableHlo.after hostOps0 (W0 m ρ c) (Proc.devRef .tc main_v6) = _
  after_results
  rfl
theorem weights_first : W1 m ρ c (Proc.devRef .tc main_v8) = val_main_v9 (F := Ideal) (A2 m c) := by
  show StableHlo.after hostOps0 (W0 m ρ c) (Proc.devRef .tc main_v8) = _
  after_results
  rfl
theorem positive_first : W1 m ρ c (Proc.devRef .tc main_v13) = val_main_v14 (F := Ideal) (A1 m c) (A2 m c) := by
  show StableHlo.after hostOps0 (W0 m ρ c) (Proc.devRef .tc main_v13) = _
  after_results
  rfl
theorem rsqrt_first : W1 m ρ c (Proc.devRef .tc main_v14) = val_main_v15 (F := Ideal) (A1 m c) (A2 m c) := by
  show StableHlo.after hostOps0 (W0 m ρ c) (Proc.devRef .tc main_v14) = _
  after_results
  rfl
theorem zero_first : W1 m ρ c (Proc.devRef .tc main_cst_2) = val_main_cst_2 (F := Ideal) := by
  show StableHlo.after hostOps0 (W0 m ρ c) (Proc.devRef .tc main_cst_2) = _
  after_results
  rfl

/-- The node factors `d`. -/
theorem factors : W2 m ρ c (Proc.devRef .tc main_v15) = val_main_v16 (F := Ideal) (A1 m c) (A2 m c) := by
  refine (where_step (W1 m ρ c)).trans ?_
  rw [positive_first, rsqrt_first, zero_first]
  rfl

/-! ## At the first product's entry -/

/-- The edges' source nodes. -/
theorem src_0 : W3 m ρ c (Proc.devRef .tc main_v5) = val_main_v6 (F := Ideal) (A1 m c) :=
  (norm_keeps_src (W2 m ρ c)).trans ((where_keeps_src (W1 m ρ c)).trans (src_first m ρ c))

/-- The edges' destination nodes. -/
theorem dst_0 : W3 m ρ c (Proc.devRef .tc main_v6) = val_main_v7 (F := Ideal) (A1 m c) :=
  (norm_keeps_dst (W2 m ρ c)).trans ((where_keeps_dst (W1 m ρ c)).trans (dst_first m ρ c))

/-- The edges' normalisation, as a column. -/
theorem nrm_0 : W3 m ρ c (Proc.devRef .tc main_v32) = val_main_v33 (F := Ideal) (A1 m c) (A2 m c) :=
  norm_step (W2 m ρ c) (A1 m c) (A2 m c) (factors m ρ c)
    ((where_keeps_src (W1 m ρ c)).trans (src_first m ρ c))
    ((where_keeps_dst (W1 m ρ c)).trans (dst_first m ρ c))
    ((where_keeps_weights (W1 m ρ c)).trans (weights_first m ρ c))

/-- The first weight matrix in the product's format. -/
theorem wt_0 : @Eq (FVec Ideal S512x512 .bf16) (V3 m ρ c main_v33) (truncf .bf16 (A3 m c) bitsLt_bf16_f32) := by
  refine (weight_step_0 (W2 m ρ c)).trans ?_
  rw [show W2 m ρ c (Proc.devRef .tc main_arg3) = A3 m c from
    (StableHlo.after_of_writes_sub hostOps0_1 _ hostOps0_1_writes (by decide)).trans
      (StableHlo.after_of_writes_sub hostOps0 _ hostOps0_writes (by decide))]

/-- The node features. -/
theorem in_0 : V3 m ρ c main_arg0 = A0 m c := kept_to_entry0 m ρ c main_arg0 (by decide)

/-! ## The first product -/

theorem prod_0 : W4 m ρ c (Proc.devRef .tc main_v34) = val_main_v4 (F := Ideal) (A0 m c) (A3 m c) := by
  refine (W4_arr m ρ c 2).trans ?_
  rw [Tiles0.product_array (V3 m ρ) c, in_0, wt_0]
  unfold val_main_v4
  rw [Cert.ReferenceIdeal.Products.product_512_512]
  rfl

/-! ## The layer's tail -/

theorem xsrc_0 : W4 m ρ c (Proc.devRef .tc main_v5) = val_main_v6 (F := Ideal) (A1 m c) :=
  (W4_of_ne m ρ c main_v5 (by decide)).trans (src_0 m ρ c)
theorem xdst_0 : W4 m ρ c (Proc.devRef .tc main_v6) = val_main_v7 (F := Ideal) (A1 m c) :=
  (W4_of_ne m ρ c main_v6 (by decide)).trans (dst_0 m ρ c)
theorem xnrm_0 : W4 m ρ c (Proc.devRef .tc main_v32) = val_main_v33 (F := Ideal) (A1 m c) (A2 m c) :=
  (W4_of_ne m ρ c main_v32 (by decide)).trans (nrm_0 m ρ c)
theorem xbias_0 : W4 m ρ c (Proc.devRef .tc main_arg4) = A4 m c :=
  (W4_of_ne m ρ c main_arg4 (by decide)).trans (kept_to_entry0 m ρ c main_arg4 (by decide))
theorem xnextw_0 : W4 m ρ c (Proc.devRef .tc main_arg5) = A5 m c :=
  (W4_of_ne m ρ c main_arg5 (by decide)).trans (kept_to_entry0 m ρ c main_arg5 (by decide))

set_option maxHeartbeats 4000000 in
/-- Layer 1's sum before the positive part. -/
theorem sum_0 : W5 m ρ c (Proc.devRef .tc main_v49)
    = val_main_v48 (F := Ideal) (A0 m c) (A1 m c) (A2 m c) (A3 m c) (A4 m c) := by
  show StableHlo.after hostOps1 (W4 m ρ c) (Proc.devRef .tc main_v49) = _
  after_results_simp
  rw [prod_0, xsrc_0, xdst_0, xnrm_0, xbias_0]
  rfl

/-- Layer 1's output, at the second product's entry: the reference's first ReLU. -/
theorem tail_0 : W7 m ρ c (Proc.devRef .tc main_v50)
    = val_main_v49 (F := Ideal) (A0 m c) (A1 m c) (A2 m c) (A3 m c) (A4 m c) := by
  refine (weight_keeps_1 (W6 m ρ c)).trans ((relu_step_1 (W5 m ρ c)).trans ?_)
  rw [sum_0]
  rfl

/-- The second weight matrix in the product's format. -/
theorem wt_1 : @Eq (FVec Ideal S512x512 .bf16) (V7 m ρ c main_v51) (truncf .bf16 (A5 m c) bitsLt_bf16_f32) := by
  refine (weight_step_1 (W6 m ρ c)).trans ?_
  rw [show W6 m ρ c (Proc.devRef .tc main_arg5) = A5 m c from
    (StableHlo.after_of_writes_sub hostOps1_1 _ hostOps1_1_writes (by decide)).trans
      ((StableHlo.after_of_writes_sub hostOps1 _ hostOps1_writes (by decide)).trans (xnextw_0 m ρ c))]

end Cert.Bridge

end
-- ==== Proof.Tiles1.lean ====
/-
  Region 1 of the program: a grid of ten points, point `t` taking rows `[2000·t, 2000·t + 2000)` of a
  `[20000, 512]` array `X` and the whole of a `[512, 512]` array `W`, and writing rows `[2000·t, 2000·t + 2000)` of
  the `[20000, 512]` output.  The tile's body is one product into a zero accumulator, so at the entry `(p, q)` of
  the tile it is `∑ k, X (2000·t + p, k) · W (k, q)`: entry `(2000·t + p, q)` of `X · W`.  Row `r` of the output lies
  in the block of point `r / 2000` and of no other, every point writes its block back, and so the output array
  after the region is the whole product `X · W` of the two arrays as the region found them.
-/
import proofs.«166896_j16209206575854_1_alg».proof.Proof.Gen.KernelIdeal.Frame
import proofs.«166896_j16209206575854_1_alg».proof.Proof.LibRowProduct

set_option maxRecDepth 16384

noncomputable section

namespace Cert.KernelIdeal.Tiles1

open Cert.KernelIdeal Cert.KernelIdeal.Gen Cert.RowProduct
open Idealize.ShloMosaic Idealize.ShloMosaic.TcCoe Idealize.ShloMosaic.ValueIdx
open Idealize.SL Idealize.SL.Sem
open Idealize.ShloMosaic.Pipeline (Dat Cfg Window)
open scoped BigOperators

/-! ## The tile's product: which operand coordinate is which -/

theorem lhs_row (i : S2000x512.Idx) (q : dot_S2000x512_S512x512_S2000x512_1_0_0_1_n_n.contr.Idx) : (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_contr (i : S2000x512.Idx) (q : dot_S2000x512_S512x512_S2000x512_1_0_0_1_n_n.contr.Idx) : (dot_S2000x512_S512x512_S2000x512_1_0_0_1_n_n.lhsIdx i q 1).val = (q ⟨0, by decide⟩).val :=
  dot_S2000x512_S512x512_S2000x512_1_0_0_1_n_n.lhsIdx_val_of_single rfl i q
theorem rhs_contr (i : S2000x512.Idx) (q : dot_S2000x512_S512x512_S2000x512_1_0_0_1_n_n.contr.Idx) : (dot_S2000x512_S512x512_S2000x512_1_0_0_1_n_n.rhsIdx i q 0).val = (q ⟨0, by decide⟩).val :=
  dot_S2000x512_S512x512_S2000x512_1_0_0_1_n_n.rhsIdx_val_of_single rfl i q
theorem rhs_col (i : S2000x512.Idx) (q : dot_S2000x512_S512x512_S2000x512_1_0_0_1_n_n.contr.Idx) : (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The body's one stored value at an entry of the tile: the sum over the contracted axis of the tile's row of
    `X` against the column of `W` (the narrowing of `X`'s format and the casts of a shape to itself are
    identities). -/
theorem tile_entry (x0 : FVec Ideal S2000x512 .f32) (x1 : FVec Ideal S512x512 .bf16) (j : S2000x512.Idx) :
    k1_pay1 (F := Ideal) x0 x1 j = ∑ k : Fin 512, x0 (ix2 (j 0) k) * x1 (ix2 k (j 1)) := by
  unfold k1_pay1
  simp only [shapeCast_self]
  exact matmul_trunc_entry dot_S2000x512_S512x512_S2000x512_1_0_0_1_n_n rfl rfl lhs_row lhs_contr rhs_contr rhs_col x0 x1 _ j

/-! ## From the tiles to the array -/

theorem zero_offsets : (![0, 0] : Fin 2 → Nat) = fun _ => 0 := funext fun a => by fin_cases a <;> rfl

/-- The printed index maps over the grid: the row-tiled windows sit at block row `t`, block column `0`; the
    second operand's one block is at `(0, 0)` at every point. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the product of the two arrays as the region finds them. -/
theorem written_back (c : Dev nD) (t : Fin cfg1.N) :
    (dat1 (F := Ideal) V c).flushed 2 t
      = ((cfg1.win 2).blk t).view.read (Elt Ideal) (rowProduct (φ₁ := .f32) (φ₂ := .bf16) (V c main_v50) (V c main_v51)) := by
  show (cfg1.win 2).cut (grid1.coords t) ((dat1 V c).after 2 t) = _
  rw [after1_2]
  unfold out1_2
  rw [View.canon_unit_zero zero_offsets]
  simp only [View.ld_unit_zero (S := S2000x512) zero_offsets, View.ld_unit_zero (S := S512x512) zero_offsets]
  obtain ⟨e00, e01, e10, e11, e20, e21⟩ := block_indices t
  funext j
  refine (tile_entry (iblk1 V c 0 t) (iblk1 V c 1 t) j).trans ?_
  show _ = rowProduct (φ₁ := .f32) (φ₂ := .bf16) (V c main_v50) (V c main_v51) (((cfg1.win 2).blk t).view.emb j)
  unfold rowProduct
  refine Finset.sum_congr rfl fun k _ => ?_
  refine congr (congrArg _ ?_) ?_
  · show V c main_v50 (((cfg1.win 0).blk t).view.emb (ix2 (j 0) k)) = V c main_v50 _
    refine congrArg (V c main_v50) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 512 + 1 * k.val = k.val; omega
  · show V c main_v51 (((cfg1.win 1).blk t).view.emb (ix2 k (j 1))) = V c main_v51 _
    refine congrArg (V c main_v51) (funext fun a => Fin.ext ?_)
    match a with
    | ⟨0, _⟩ => show win1_1.index t (0 : Fin 2) * 512 + 1 * k.val = k.val; omega
    | ⟨1, _⟩ => show win1_1.index t (1 : Fin 2) * 512 + 1 * (j 1).val = win1_2.index t (1 : Fin 2) * 512 + 1 * (j 1).val; omega

/-- An index of the output array lies in point `t`'s block iff each coordinate lies in the block's range. -/
theorem mem_block (t : Fin cfg1.N) (i : S20000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v52).slice (win1_2.rect t)).set ↔ _
  rw [View.set_slice_whole, Rect.mem_set_unit]
  exact Iff.rfl

/-- Row `r` of the output is in the block of point `r / 2000`, which writes it back. -/
theorem rows_covered (i : S20000x512.Idx) :
    ∃ t : Fin cfg1.N, (cfg1.win 2).flush t = true ∧ i ∈ ((cfg1.win 2).blk t).view.set := by
  have hi0 : (i 0).val < 20000 := (i 0).isLt
  have hi1 : (i 1).val < 512 := (i 1).isLt
  have hN : grid1.N = 10 := N_1
  refine ⟨⟨(i 0).val / 2000, by show (i 0).val / 2000 < grid1.N; omega⟩, flush1_2 _, ?_⟩
  rw [mem_block]
  obtain ⟨e00, e01, e10, e11, e20, e21⟩ := block_indices ⟨(i 0).val / 2000, by show (i 0).val / 2000 < grid1.N; omega⟩
  intro a
  match a with
  | ⟨0, _⟩ =>
    show win1_2.index _ (0 : Fin 2) * 2000 ≤ (i 0).val ∧ (i 0).val < win1_2.index _ (0 : Fin 2) * 2000 + 2000
    rw [e20]; show (i 0).val / 2000 * 2000 ≤ (i 0).val ∧ (i 0).val < (i 0).val / 2000 * 2000 + 2000; omega
  | ⟨1, _⟩ =>
    show win1_2.index _ (1 : Fin 2) * 512 ≤ (i 1).val ∧ (i 1).val < win1_2.index _ (1 : Fin 2) * 512 + 512
    rw [e21]; omega

/-- THE OUTPUT ARRAY after the region: the product of the two input arrays as the region found them. -/
theorem product_array (c : Dev nD) :
    (dat1 (F := Ideal) V c).arrAt 2 cfg1.N
      = rowProduct (φ₁ := .f32) (φ₂ := .bf16) (V c main_v50) (V c main_v51) :=
  (dat1 (F := Ideal) V c).arrAt_eq_of_cover 2 _ (fun t _ => written_back V c t) rows_covered

end Cert.KernelIdeal.Tiles1

end
-- ==== Proof.Layer2.lean ====
/-
  Layer 2, read off the run.

  At the entry of product 1 the activations are layer 1's output (the reference's ReLU of that layer) and the
  weight matrix is argument 5 in the product's float format — the identity on the extended reals.  The edge
  sources, destinations and normalisation are the arrays built before the first product, untouched since: no
  layer writes them.  The product's output array is the whole matrix product; the layer's tail gathers its rows
  by source, scales by the normalisation, sums by destination, adds the bias and takes the positive part.
  The reference recomputes the edge arrays in every layer, by the same operations on the same arguments, so its
  copies are the same values and the two layers agree stage by stage.
-/
import proofs.«166896_j16209206575854_1_alg».proof.Proof.Layer1
import proofs.«166896_j16209206575854_1_alg».proof.Proof.Tiles1

set_option maxRecDepth 16384

noncomputable section

namespace Cert.Bridge

open Cert.KernelIdeal Cert.KernelIdeal.Gen Cert.KernelIdeal.Carry Cert.KernelIdeal.Args Cert.RowProduct
open Idealize.ShloMosaic Idealize.ShloMosaic.TcCoe Idealize.ShloMosaic.StableHlo
open Idealize.SL Idealize.SL.Sem
open Cert.ReferenceIdeal.Read (val_main_v6 val_main_v7 val_main_v33 val_main_v49 val_main_v50 val_main_v94 val_main_v95)

/-! ## The outlined positive part and the next weight's format, from any contents -/

section Steps
variable (V : Valuation τ sig (Elt Ideal))

/-- The positive part of layer 2's sum. -/
theorem relu_step_2 : StableHlo.after hostOps2_1 V (Proc.devRef .tc main_v68)
    = maximumf (V (Proc.devRef .tc main_v67))
        (broadcastInDim S20000x512 ![] bcast_S_S20000x512 (constant (F := Ideal) S_ .f32 0x00000000#32)) := by
  after_results
  rfl
theorem weight_step_2 : @Eq (FVec Ideal S512x512 .bf16) (StableHlo.after hostOps2_2 V (Proc.devRef .tc main_v69))
    (truncf .bf16 (V (Proc.devRef .tc main_arg7)) bitsLt_bf16_f32) := by
  after_results
theorem weight_keeps_2 : StableHlo.after hostOps2_2 V (Proc.devRef .tc main_v68) = V (Proc.devRef .tc main_v68) := by
  after_results

end Steps

variable (m : (ℓ : Loc nD τ sig) → Buf (Elt Ideal) ℓ) (ρ : Dev nD → PrngReg) (c : Dev nD)

/-! ## At product 1's entry -/

theorem in_1 : V7 m ρ c main_v50 = val_main_v49 (F := Ideal) (A0 m c) (A1 m c) (A2 m c) (A3 m c) (A4 m c) := tail_0 m ρ c

theorem src_1 : W7 m ρ c (Proc.devRef .tc main_v5) = val_main_v6 (F := Ideal) (A1 m c) :=
  (entry0_to_entry1 m ρ c main_v5 (by decide) (by decide)).trans (src_0 m ρ c)
theorem dst_1 : W7 m ρ c (Proc.devRef .tc main_v6) = val_main_v7 (F := Ideal) (A1 m c) :=
  (entry0_to_entry1 m ρ c main_v6 (by decide) (by decide)).trans (dst_0 m ρ c)
theorem nrm_1 : W7 m ρ c (Proc.devRef .tc main_v32) = val_main_v33 (F := Ideal) (A1 m c) (A2 m c) :=
  (entry0_to_entry1 m ρ c main_v32 (by decide) (by decide)).trans (nrm_0 m ρ c)

/-! ## The product -/

theorem prod_1 : W8 m ρ c (Proc.devRef .tc main_v52) = val_main_v50 (F := Ideal) (A0 m c) (A1 m c) (A2 m c) (A3 m c) (A4 m c) (A5 m c) := by
  refine (W8_arr m ρ c 2).trans ?_
  rw [Tiles1.product_array (V7 m ρ) c, in_1, wt_1]
  unfold val_main_v50
  rw [Cert.ReferenceIdeal.Products.product_512_512]
  rfl

/-! ## The layer's tail -/

theorem xsrc_1 : W8 m ρ c (Proc.devRef .tc main_v5) = val_main_v6 (F := Ideal) (A1 m c) :=
  (W8_of_ne m ρ c main_v5 (by decide)).trans (src_1 m ρ c)
theorem xdst_1 : W8 m ρ c (Proc.devRef .tc main_v6) = val_main_v7 (F := Ideal) (A1 m c) :=
  (W8_of_ne m ρ c main_v6 (by decide)).trans (dst_1 m ρ c)
theorem xnrm_1 : W8 m ρ c (Proc.devRef .tc main_v32) = val_main_v33 (F := Ideal) (A1 m c) (A2 m c) :=
  (W8_of_ne m ρ c main_v32 (by decide)).trans (nrm_1 m ρ c)
theorem xbias_1 : W8 m ρ c (Proc.devRef .tc main_arg6) = A6 m c :=
  (W8_of_ne m ρ c main_arg6 (by decide)).trans (launch_to_entry1 m ρ c main_arg6 (by decide) (by decide) (by decide))
theorem xnextw_1 : W8 m ρ c (Proc.devRef .tc main_arg7) = A7 m c :=
  (W8_of_ne m ρ c main_arg7 (by decide)).trans (launch_to_entry1 m ρ c main_arg7 (by decide) (by decide) (by decide))

set_option maxHeartbeats 4000000 in
/-- Layer 2's sum before the positive part. -/
theorem sum_1 : W9 m ρ c (Proc.devRef .tc main_v67)
    = val_main_v94 (F := Ideal) (A0 m c) (A1 m c) (A2 m c) (A3 m c) (A4 m c) (A5 m c) (A6 m c) := by
  show StableHlo.after hostOps2 (W8 m ρ c) (Proc.devRef .tc main_v67) = _
  after_results_simp
  rw [prod_1, xsrc_1, xdst_1, xnrm_1, xbias_1]
  rfl

/-- Layer 2's output, at the next product's entry: the reference's ReLU of that layer. -/
theorem tail_1 : W11 m ρ c (Proc.devRef .tc main_v68)
    = val_main_v95 (F := Ideal) (A0 m c) (A1 m c) (A2 m c) (A3 m c) (A4 m c) (A5 m c) (A6 m c) := by
  refine (weight_keeps_2 (W10 m ρ c)).trans ((relu_step_2 (W9 m ρ c)).trans ?_)
  rw [sum_1]
  rfl

/-- The next weight matrix in the product's format. -/
theorem wt_2 : @Eq (FVec Ideal S512x512 .bf16) (V11 m ρ c main_v69) (truncf .bf16 (A7 m c) bitsLt_bf16_f32) := by
  refine (weight_step_2 (W10 m ρ c)).trans ?_
  rw [show W10 m ρ c (Proc.devRef .tc main_arg7) = A7 m c from
    (StableHlo.after_of_writes_sub hostOps2_1 _ hostOps2_1_writes (by decide)).trans
      ((StableHlo.after_of_writes_sub hostOps2 _ hostOps2_writes (by decide)).trans (xnextw_1 m ρ c))]

end Cert.Bridge

end
-- ==== Proof.Tiles2.lean ====
/-
  Region 2 of the program: a grid of ten points, point `t` taking rows `[2000·t, 2000·t + 2000)` of a
  `[20000, 512]` array `X` and the whole of a `[512, 512]` array `W`, and writing rows `[2000·t, 2000·t + 2000)` of
  the `[20000, 512]` output.  The tile's body is one product into a zero accumulator, so at the entry `(p, q)` of
  the tile it is `∑ k, X (2000·t + p, k) · W (k, q)`: entry `(2000·t + p, q)` of `X · W`.  Row `r` of the output lies
  in the block of point `r / 2000` and of no other, every point writes its block back, and so the output array
  after the region is the whole product `X · W` of the two arrays as the region found them.
-/
import proofs.«166896_j16209206575854_1_alg».proof.Proof.Gen.KernelIdeal.Frame
import proofs.«166896_j16209206575854_1_alg».proof.Proof.LibRowProduct

set_option maxRecDepth 16384

noncomputable section

namespace Cert.KernelIdeal.Tiles2

open Cert.KernelIdeal Cert.KernelIdeal.Gen Cert.RowProduct
open Idealize.ShloMosaic Idealize.ShloMosaic.TcCoe Idealize.ShloMosaic.ValueIdx
open Idealize.SL Idealize.SL.Sem
open Idealize.ShloMosaic.Pipeline (Dat Cfg Window)
open scoped BigOperators

/-! ## The tile's product: which operand coordinate is which -/

theorem lhs_row (i : S2000x512.Idx) (q : dot_S2000x512_S512x512_S2000x512_1_0_0_1_n_n.contr.Idx) : (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_contr (i : S2000x512.Idx) (q : dot_S2000x512_S512x512_S2000x512_1_0_0_1_n_n.contr.Idx) : (dot_S2000x512_S512x512_S2000x512_1_0_0_1_n_n.lhsIdx i q 1).val = (q ⟨0, by decide⟩).val :=
  dot_S2000x512_S512x512_S2000x512_1_0_0_1_n_n.lhsIdx_val_of_single rfl i q
theorem rhs_contr (i : S2000x512.Idx) (q : dot_S2000x512_S512x512_S2000x512_1_0_0_1_n_n.contr.Idx) : (dot_S2000x512_S512x512_S2000x512_1_0_0_1_n_n.rhsIdx i q 0).val = (q ⟨0, by decide⟩).val :=
  dot_S2000x512_S512x512_S2000x512_1_0_0_1_n_n.rhsIdx_val_of_single rfl i q
theorem rhs_col (i : S2000x512.Idx) (q : dot_S2000x512_S512x512_S2000x512_1_0_0_1_n_n.contr.Idx) : (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The body's one stored value at an entry of the tile: the sum over the contracted axis of the tile's row of
    `X` against the column of `W` (the narrowing of `X`'s format and the casts of a shape to itself are
    identities). -/
theorem tile_entry (x0 : FVec Ideal S2000x512 .f32) (x1 : FVec Ideal S512x512 .bf16) (j : S2000x512.Idx) :
    k2_pay1 (F := Ideal) x0 x1 j = ∑ k : Fin 512, x0 (ix2 (j 0) k) * x1 (ix2 k (j 1)) := by
  unfold k2_pay1
  simp only [shapeCast_self]
  exact matmul_trunc_entry dot_S2000x512_S512x512_S2000x512_1_0_0_1_n_n rfl rfl lhs_row lhs_contr rhs_contr rhs_col x0 x1 _ j

/-! ## From the tiles to the array -/

theorem zero_offsets : (![0, 0] : Fin 2 → Nat) = fun _ => 0 := funext fun a => by fin_cases a <;> rfl

/-- The printed index maps over the grid: the row-tiled windows sit at block row `t`, block column `0`; the
    second operand's one block is at `(0, 0)` at every point. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of the product of the two arrays as the region finds them. -/
theorem written_back (c : Dev nD) (t : Fin cfg2.N) :
    (dat2 (F := Ideal) V c).flushed 2 t
      = ((cfg2.win 2).blk t).view.read (Elt Ideal) (rowProduct (φ₁ := .f32) (φ₂ := .bf16) (V c main_v68) (V c main_v69)) := by
  show (cfg2.win 2).cut (grid2.coords t) ((dat2 V c).after 2 t) = _
  rw [after2_2]
  unfold out2_2
  rw [View.canon_unit_zero zero_offsets]
  simp only [View.ld_unit_zero (S := S2000x512) zero_offsets, View.ld_unit_zero (S := S512x512) zero_offsets]
  obtain ⟨e00, e01, e10, e11, e20, e21⟩ := block_indices t
  funext j
  refine (tile_entry (iblk2 V c 0 t) (iblk2 V c 1 t) j).trans ?_
  show _ = rowProduct (φ₁ := .f32) (φ₂ := .bf16) (V c main_v68) (V c main_v69) (((cfg2.win 2).blk t).view.emb j)
  unfold rowProduct
  refine Finset.sum_congr rfl fun k _ => ?_
  refine congr (congrArg _ ?_) ?_
  · show V c main_v68 (((cfg2.win 0).blk t).view.emb (ix2 (j 0) k)) = V c main_v68 _
    refine congrArg (V c main_v68) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 512 + 1 * k.val = k.val; omega
  · show V c main_v69 (((cfg2.win 1).blk t).view.emb (ix2 k (j 1))) = V c main_v69 _
    refine congrArg (V c main_v69) (funext fun a => Fin.ext ?_)
    match a with
    | ⟨0, _⟩ => show win2_1.index t (0 : Fin 2) * 512 + 1 * k.val = k.val; omega
    | ⟨1, _⟩ => show win2_1.index t (1 : Fin 2) * 512 + 1 * (j 1).val = win2_2.index t (1 : Fin 2) * 512 + 1 * (j 1).val; omega

/-- An index of the output array lies in point `t`'s block iff each coordinate lies in the block's range. -/
theorem mem_block (t : Fin cfg2.N) (i : S20000x512.Idx) :
    i ∈ ((cfg2.win 2).blk t).view.set ↔ ∀ a : Fin 2, win2_2.index t a * S2000x512.size a ≤ (i a).val ∧ (i a).val < win2_2.index t a * S2000x512.size a + S2000x512.size a := by
  show i ∈ ((View.whole main_v70).slice (win2_2.rect t)).set ↔ _
  rw [View.set_slice_whole, Rect.mem_set_unit]
  exact Iff.rfl

/-- Row `r` of the output is in the block of point `r / 2000`, which writes it back. -/
theorem rows_covered (i : S20000x512.Idx) :
    ∃ t : Fin cfg2.N, (cfg2.win 2).flush t = true ∧ i ∈ ((cfg2.win 2).blk t).view.set := by
  have hi0 : (i 0).val < 20000 := (i 0).isLt
  have hi1 : (i 1).val < 512 := (i 1).isLt
  have hN : grid2.N = 10 := N_2
  refine ⟨⟨(i 0).val / 2000, by show (i 0).val / 2000 < grid2.N; omega⟩, flush2_2 _, ?_⟩
  rw [mem_block]
  obtain ⟨e00, e01, e10, e11, e20, e21⟩ := block_indices ⟨(i 0).val / 2000, by show (i 0).val / 2000 < grid2.N; omega⟩
  intro a
  match a with
  | ⟨0, _⟩ =>
    show win2_2.index _ (0 : Fin 2) * 2000 ≤ (i 0).val ∧ (i 0).val < win2_2.index _ (0 : Fin 2) * 2000 + 2000
    rw [e20]; show (i 0).val / 2000 * 2000 ≤ (i 0).val ∧ (i 0).val < (i 0).val / 2000 * 2000 + 2000; omega
  | ⟨1, _⟩ =>
    show win2_2.index _ (1 : Fin 2) * 512 ≤ (i 1).val ∧ (i 1).val < win2_2.index _ (1 : Fin 2) * 512 + 512
    rw [e21]; omega

/-- THE OUTPUT ARRAY after the region: the product of the two input arrays as the region found them. -/
theorem product_array (c : Dev nD) :
    (dat2 (F := Ideal) V c).arrAt 2 cfg2.N
      = rowProduct (φ₁ := .f32) (φ₂ := .bf16) (V c main_v68) (V c main_v69) :=
  (dat2 (F := Ideal) V c).arrAt_eq_of_cover 2 _ (fun t _ => written_back V c t) rows_covered

end Cert.KernelIdeal.Tiles2

end
-- ==== Proof.Layer3.lean ====
/-
  Layer 3, read off the run.

  At the entry of product 2 the activations are layer 2's output (the reference's ReLU of that layer) and the
  weight matrix is argument 7 in the product's float format — the identity on the extended reals.  The edge
  sources, destinations and normalisation are the arrays built before the first product, untouched since: no
  layer writes them.  The product's output array is the whole matrix product; the layer's tail gathers its rows
  by source, scales by the normalisation, sums by destination, adds the bias and takes the positive part.
  The reference recomputes the edge arrays in every layer, by the same operations on the same arguments, so its
  copies are the same values and the two layers agree stage by stage.
-/
import proofs.«166896_j16209206575854_1_alg».proof.Proof.Layer2
import proofs.«166896_j16209206575854_1_alg».proof.Proof.Tiles2

set_option maxRecDepth 16384

noncomputable section

namespace Cert.Bridge

open Cert.KernelIdeal Cert.KernelIdeal.Gen Cert.KernelIdeal.Carry Cert.KernelIdeal.Args Cert.RowProduct
open Idealize.ShloMosaic Idealize.ShloMosaic.TcCoe Idealize.ShloMosaic.StableHlo
open Idealize.SL Idealize.SL.Sem
open Cert.ReferenceIdeal.Read (val_main_v6 val_main_v7 val_main_v33 val_main_v95 val_main_v96 val_main_v140 val_main_v141)

/-! ## The outlined positive part and the next weight's format, from any contents -/

section Steps
variable (V : Valuation τ sig (Elt Ideal))

/-- The positive part of layer 3's sum. -/
theorem relu_step_3 : StableHlo.after hostOps3_1 V (Proc.devRef .tc main_v86)
    = maximumf (V (Proc.devRef .tc main_v85))
        (broadcastInDim S20000x512 ![] bcast_S_S20000x512 (constant (F := Ideal) S_ .f32 0x00000000#32)) := by
  after_results
  rfl
theorem weight_step_3 : @Eq (FVec Ideal S512x256 .bf16) (StableHlo.after hostOps3_2 V (Proc.devRef .tc main_v87))
    (truncf .bf16 (V (Proc.devRef .tc main_arg9)) bitsLt_bf16_f32) := by
  after_results
theorem weight_keeps_3 : StableHlo.after hostOps3_2 V (Proc.devRef .tc main_v86) = V (Proc.devRef .tc main_v86) := by
  after_results

end Steps

variable (m : (ℓ : Loc nD τ sig) → Buf (Elt Ideal) ℓ) (ρ : Dev nD → PrngReg) (c : Dev nD)

/-! ## At product 2's entry -/

theorem in_2 : V11 m ρ c main_v68 = val_main_v95 (F := Ideal) (A0 m c) (A1 m c) (A2 m c) (A3 m c) (A4 m c) (A5 m c) (A6 m c) := tail_1 m ρ c

theorem src_2 : W11 m ρ c (Proc.devRef .tc main_v5) = val_main_v6 (F := Ideal) (A1 m c) :=
  (entry0_to_entry2 m ρ c main_v5 (by decide) (by decide) (by decide) (by decide)).trans (src_0 m ρ c)
theorem dst_2 : W11 m ρ c (Proc.devRef .tc main_v6) = val_main_v7 (F := Ideal) (A1 m c) :=
  (entry0_to_entry2 m ρ c main_v6 (by decide) (by decide) (by decide) (by decide)).trans (dst_0 m ρ c)
theorem nrm_2 : W11 m ρ c (Proc.devRef .tc main_v32) = val_main_v33 (F := Ideal) (A1 m c) (A2 m c) :=
  (entry0_to_entry2 m ρ c main_v32 (by decide) (by decide) (by decide) (by decide)).trans (nrm_0 m ρ c)

/-! ## The product -/

theorem prod_2 : W12 m ρ c (Proc.devRef .tc main_v70) = val_main_v96 (F := Ideal) (A0 m c) (A1 m c) (A2 m c) (A3 m c) (A4 m c) (A5 m c) (A6 m c) (A7 m c) := by
  refine (W12_arr m ρ c 2).trans ?_
  rw [Tiles2.product_array (V11 m ρ) c, in_2, wt_2]
  unfold val_main_v96
  rw [Cert.ReferenceIdeal.Products.product_512_512]
  rfl

/-! ## The layer's tail -/

theorem xsrc_2 : W12 m ρ c (Proc.devRef .tc main_v5) = val_main_v6 (F := Ideal) (A1 m c) :=
  (W12_of_ne m ρ c main_v5 (by decide)).trans (src_2 m ρ c)
theorem xdst_2 : W12 m ρ c (Proc.devRef .tc main_v6) = val_main_v7 (F := Ideal) (A1 m c) :=
  (W12_of_ne m ρ c main_v6 (by decide)).trans (dst_2 m ρ c)
theorem xnrm_2 : W12 m ρ c (Proc.devRef .tc main_v32) = val_main_v33 (F := Ideal) (A1 m c) (A2 m c) :=
  (W12_of_ne m ρ c main_v32 (by decide)).trans (nrm_2 m ρ c)
theorem xbias_2 : W12 m ρ c (Proc.devRef .tc main_arg8) = A8 m c :=
  (W12_of_ne m ρ c main_arg8 (by decide)).trans (launch_to_entry2 m ρ c main_arg8 (by decide) (by decide) (by decide) (by decide) (by decide))
theorem xnextw_2 : W12 m ρ c (Proc.devRef .tc main_arg9) = A9 m c :=
  (W12_of_ne m ρ c main_arg9 (by decide)).trans (launch_to_entry2 m ρ c main_arg9 (by decide) (by decide) (by decide) (by decide) (by decide))

set_option maxHeartbeats 4000000 in
/-- Layer 3's sum before the positive part. -/
theorem sum_2 : W13 m ρ c (Proc.devRef .tc main_v85)
    = val_main_v140 (F := Ideal) (A0 m c) (A1 m c) (A2 m c) (A3 m c) (A4 m c) (A5 m c) (A6 m c) (A7 m c) (A8 m c) := by
  show StableHlo.after hostOps3 (W12 m ρ c) (Proc.devRef .tc main_v85) = _
  after_results_simp
  rw [prod_2, xsrc_2, xdst_2, xnrm_2, xbias_2]
  rfl

/-- Layer 3's output, at the next product's entry: the reference's ReLU of that layer. -/
theorem tail_2 : W15 m ρ c (Proc.devRef .tc main_v86)
    = val_main_v141 (F := Ideal) (A0 m c) (A1 m c) (A2 m c) (A3 m c) (A4 m c) (A5 m c) (A6 m c) (A7 m c) (A8 m c) := by
  refine (weight_keeps_3 (W14 m ρ c)).trans ((relu_step_3 (W13 m ρ c)).trans ?_)
  rw [sum_2]
  rfl

/-- The next weight matrix in the product's format. -/
theorem wt_3 : @Eq (FVec Ideal S512x256 .bf16) (V15 m ρ c main_v87) (truncf .bf16 (A9 m c) bitsLt_bf16_f32) := by
  refine (weight_step_3 (W14 m ρ c)).trans ?_
  rw [show W14 m ρ c (Proc.devRef .tc main_arg9) = A9 m c from
    (StableHlo.after_of_writes_sub hostOps3_1 _ hostOps3_1_writes (by decide)).trans
      ((StableHlo.after_of_writes_sub hostOps3 _ hostOps3_writes (by decide)).trans (xnextw_2 m ρ c))]

end Cert.Bridge

end
-- ==== Proof.Tiles3.lean ====
/-
  Region 3 of the program: a grid of ten points, point `t` taking rows `[2000·t, 2000·t + 2000)` of a
  `[20000, 512]` array `X` and the whole of a `[512, 256]` array `W`, and writing rows `[2000·t, 2000·t + 2000)` of
  the `[20000, 256]` output.  The tile's body is one product into a zero accumulator, so at the entry `(p, q)` of
  the tile it is `∑ k, X (2000·t + p, k) · W (k, q)`: entry `(2000·t + p, q)` of `X · W`.  Row `r` of the output lies
  in the block of point `r / 2000` and of no other, every point writes its block back, and so the output array
  after the region is the whole product `X · W` of the two arrays as the region found them.
-/
import proofs.«166896_j16209206575854_1_alg».proof.Proof.Gen.KernelIdeal.Frame
import proofs.«166896_j16209206575854_1_alg».proof.Proof.LibRowProduct

set_option maxRecDepth 16384

noncomputable section

namespace Cert.KernelIdeal.Tiles3

open Cert.KernelIdeal Cert.KernelIdeal.Gen Cert.RowProduct
open Idealize.ShloMosaic Idealize.ShloMosaic.TcCoe Idealize.ShloMosaic.ValueIdx
open Idealize.SL Idealize.SL.Sem
open Idealize.ShloMosaic.Pipeline (Dat Cfg Window)
open scoped BigOperators

/-! ## The tile's product: which operand coordinate is which -/

theorem lhs_row (i : S2000x256.Idx) (q : dot_S2000x512_S512x256_S2000x256_1_0_0_1_n_n.contr.Idx) : (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_contr (i : S2000x256.Idx) (q : dot_S2000x512_S512x256_S2000x256_1_0_0_1_n_n.contr.Idx) : (dot_S2000x512_S512x256_S2000x256_1_0_0_1_n_n.lhsIdx i q 1).val = (q ⟨0, by decide⟩).val :=
  dot_S2000x512_S512x256_S2000x256_1_0_0_1_n_n.lhsIdx_val_of_single rfl i q
theorem rhs_contr (i : S2000x256.Idx) (q : dot_S2000x512_S512x256_S2000x256_1_0_0_1_n_n.contr.Idx) : (dot_S2000x512_S512x256_S2000x256_1_0_0_1_n_n.rhsIdx i q 0).val = (q ⟨0, by decide⟩).val :=
  dot_S2000x512_S512x256_S2000x256_1_0_0_1_n_n.rhsIdx_val_of_single rfl i q
theorem rhs_col (i : S2000x256.Idx) (q : dot_S2000x512_S512x256_S2000x256_1_0_0_1_n_n.contr.Idx) : (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The body's one stored value at an entry of the tile: the sum over the contracted axis of the tile's row of
    `X` against the column of `W` (the narrowing of `X`'s format and the casts of a shape to itself are
    identities). -/
theorem tile_entry (x0 : FVec Ideal S2000x512 .f32) (x1 : FVec Ideal S512x256 .bf16) (j : S2000x256.Idx) :
    k3_pay1 (F := Ideal) x0 x1 j = ∑ k : Fin 512, x0 (ix2 (j 0) k) * x1 (ix2 k (j 1)) := by
  unfold k3_pay1
  simp only [shapeCast_self]
  exact matmul_trunc_entry dot_S2000x512_S512x256_S2000x256_1_0_0_1_n_n rfl rfl lhs_row lhs_contr rhs_contr rhs_col x0 x1 _ j

/-! ## From the tiles to the array -/

theorem zero_offsets : (![0, 0] : Fin 2 → Nat) = fun _ => 0 := funext fun a => by fin_cases a <;> rfl

/-- The printed index maps over the grid: the row-tiled windows sit at block row `t`, block column `0`; the
    second operand's one block is at `(0, 0)` at every point. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the product of the two arrays as the region finds them. -/
theorem written_back (c : Dev nD) (t : Fin cfg3.N) :
    (dat3 (F := Ideal) V c).flushed 2 t
      = ((cfg3.win 2).blk t).view.read (Elt Ideal) (rowProduct (φ₁ := .f32) (φ₂ := .bf16) (V c main_v86) (V c main_v87)) := by
  show (cfg3.win 2).cut (grid3.coords t) ((dat3 V c).after 2 t) = _
  rw [after3_2]
  unfold out3_2
  rw [View.canon_unit_zero zero_offsets]
  simp only [View.ld_unit_zero (S := S2000x512) zero_offsets, View.ld_unit_zero (S := S512x256) zero_offsets]
  obtain ⟨e00, e01, e10, e11, e20, e21⟩ := block_indices t
  funext j
  refine (tile_entry (iblk3 V c 0 t) (iblk3 V c 1 t) j).trans ?_
  show _ = rowProduct (φ₁ := .f32) (φ₂ := .bf16) (V c main_v86) (V c main_v87) (((cfg3.win 2).blk t).view.emb j)
  unfold rowProduct
  refine Finset.sum_congr rfl fun k _ => ?_
  refine congr (congrArg _ ?_) ?_
  · show V c main_v86 (((cfg3.win 0).blk t).view.emb (ix2 (j 0) k)) = V c main_v86 _
    refine congrArg (V c main_v86) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 512 + 1 * k.val = k.val; omega
  · show V c main_v87 (((cfg3.win 1).blk t).view.emb (ix2 k (j 1))) = V c main_v87 _
    refine congrArg (V c main_v87) (funext fun a => Fin.ext ?_)
    match a with
    | ⟨0, _⟩ => show win3_1.index t (0 : Fin 2) * 512 + 1 * k.val = k.val; omega
    | ⟨1, _⟩ => show win3_1.index t (1 : Fin 2) * 256 + 1 * (j 1).val = win3_2.index t (1 : Fin 2) * 256 + 1 * (j 1).val; omega

/-- An index of the output array lies in point `t`'s block iff each coordinate lies in the block's range. -/
theorem mem_block (t : Fin cfg3.N) (i : S20000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v88).slice (win3_2.rect t)).set ↔ _
  rw [View.set_slice_whole, Rect.mem_set_unit]
  exact Iff.rfl

/-- Row `r` of the output is in the block of point `r / 2000`, which writes it back. -/
theorem rows_covered (i : S20000x256.Idx) :
    ∃ t : Fin cfg3.N, (cfg3.win 2).flush t = true ∧ i ∈ ((cfg3.win 2).blk t).view.set := by
  have hi0 : (i 0).val < 20000 := (i 0).isLt
  have hi1 : (i 1).val < 256 := (i 1).isLt
  have hN : grid3.N = 10 := N_3
  refine ⟨⟨(i 0).val / 2000, by show (i 0).val / 2000 < grid3.N; omega⟩, flush3_2 _, ?_⟩
  rw [mem_block]
  obtain ⟨e00, e01, e10, e11, e20, e21⟩ := block_indices ⟨(i 0).val / 2000, by show (i 0).val / 2000 < grid3.N; omega⟩
  intro a
  match a with
  | ⟨0, _⟩ =>
    show win3_2.index _ (0 : Fin 2) * 2000 ≤ (i 0).val ∧ (i 0).val < win3_2.index _ (0 : Fin 2) * 2000 + 2000
    rw [e20]; show (i 0).val / 2000 * 2000 ≤ (i 0).val ∧ (i 0).val < (i 0).val / 2000 * 2000 + 2000; omega
  | ⟨1, _⟩ =>
    show win3_2.index _ (1 : Fin 2) * 256 ≤ (i 1).val ∧ (i 1).val < win3_2.index _ (1 : Fin 2) * 256 + 256
    rw [e21]; omega

/-- THE OUTPUT ARRAY after the region: the product of the two input arrays as the region found them. -/
theorem product_array (c : Dev nD) :
    (dat3 (F := Ideal) V c).arrAt 2 cfg3.N
      = rowProduct (φ₁ := .f32) (φ₂ := .bf16) (V c main_v86) (V c main_v87) :=
  (dat3 (F := Ideal) V c).arrAt_eq_of_cover 2 _ (fun t _ => written_back V c t) rows_covered

end Cert.KernelIdeal.Tiles3

end
-- ==== Proof.Layer4.lean ====
/-
  Layer 4, read off the run.

  At the entry of product 3 the activations are layer 3's output (the reference's ReLU of that layer) and the
  weight matrix is argument 9 in the product's float format — the identity on the extended reals.  The edge
  sources, destinations and normalisation are the arrays built before the first product, untouched since: no
  layer writes them.  The product's output array is the whole matrix product; the layer's tail gathers its rows
  by source, scales by the normalisation, sums by destination, adds the bias and takes the positive part.
  The reference recomputes the edge arrays in every layer, by the same operations on the same arguments, so its
  copies are the same values and the two layers agree stage by stage.
-/
import proofs.«166896_j16209206575854_1_alg».proof.Proof.Layer3
import proofs.«166896_j16209206575854_1_alg».proof.Proof.Tiles3

set_option maxRecDepth 16384

noncomputable section

namespace Cert.Bridge

open Cert.KernelIdeal Cert.KernelIdeal.Gen Cert.KernelIdeal.Carry Cert.KernelIdeal.Args Cert.RowProduct
open Idealize.ShloMosaic Idealize.ShloMosaic.TcCoe Idealize.ShloMosaic.StableHlo
open Idealize.SL Idealize.SL.Sem
open Cert.ReferenceIdeal.Read (val_main_v6 val_main_v7 val_main_v33 val_main_v141 val_main_v142 val_main_v186 val_main_v187)

/-! ## The outlined positive part and the next weight's format, from any contents -/

section Steps
variable (V : Valuation τ sig (Elt Ideal))

/-- The positive part of layer 4's sum. -/
theorem relu_step_4 : StableHlo.after hostOps4_1 V (Proc.devRef .tc main_v104)
    = maximumf (V (Proc.devRef .tc main_v103))
        (broadcastInDim S20000x256 ![] bcast_S_S20000x256 (constant (F := Ideal) S_ .f32 0x00000000#32)) := by
  after_results
  rfl
theorem weight_step_4 : @Eq (FVec Ideal S256x1 .bf16) (StableHlo.after hostOps4_2 V (Proc.devRef .tc main_v105))
    (truncf .bf16 (V (Proc.devRef .tc main_arg11)) bitsLt_bf16_f32) := by
  after_results
theorem weight_keeps_4 : StableHlo.after hostOps4_2 V (Proc.devRef .tc main_v104) = V (Proc.devRef .tc main_v104) := by
  after_results

end Steps

variable (m : (ℓ : Loc nD τ sig) → Buf (Elt Ideal) ℓ) (ρ : Dev nD → PrngReg) (c : Dev nD)

/-! ## At product 3's entry -/

theorem in_3 : V15 m ρ c main_v86 = val_main_v141 (F := Ideal) (A0 m c) (A1 m c) (A2 m c) (A3 m c) (A4 m c) (A5 m c) (A6 m c) (A7 m c) (A8 m c) := tail_2 m ρ c

theorem src_3 : W15 m ρ c (Proc.devRef .tc main_v5) = val_main_v6 (F := Ideal) (A1 m c) :=
  (entry0_to_entry3 m ρ c main_v5 (by decide) (by decide) (by decide) (by decide) (by decide) (by decide)).trans (src_0 m ρ c)
theorem dst_3 : W15 m ρ c (Proc.devRef .tc main_v6) = val_main_v7 (F := Ideal) (A1 m c) :=
  (entry0_to_entry3 m ρ c main_v6 (by decide) (by decide) (by decide) (by decide) (by decide) (by decide)).trans (dst_0 m ρ c)
theorem nrm_3 : W15 m ρ c (Proc.devRef .tc main_v32) = val_main_v33 (F := Ideal) (A1 m c) (A2 m c) :=
  (entry0_to_entry3 m ρ c main_v32 (by decide) (by decide) (by decide) (by decide) (by decide) (by decide)).trans (nrm_0 m ρ c)

/-! ## The product -/

theorem prod_3 : W16 m ρ c (Proc.devRef .tc main_v88) = val_main_v142 (F := Ideal) (A0 m c) (A1 m c) (A2 m c) (A3 m c) (A4 m c) (A5 m c) (A6 m c) (A7 m c) (A8 m c) (A9 m c) := by
  refine (W16_arr m ρ c 2).trans ?_
  rw [Tiles3.product_array (V15 m ρ) c, in_3, wt_3]
  unfold val_main_v142
  rw [Cert.ReferenceIdeal.Products.product_512_256]
  rfl

/-! ## The layer's tail -/

theorem xsrc_3 : W16 m ρ c (Proc.devRef .tc main_v5) = val_main_v6 (F := Ideal) (A1 m c) :=
  (W16_of_ne m ρ c main_v5 (by decide)).trans (src_3 m ρ c)
theorem xdst_3 : W16 m ρ c (Proc.devRef .tc main_v6) = val_main_v7 (F := Ideal) (A1 m c) :=
  (W16_of_ne m ρ c main_v6 (by decide)).trans (dst_3 m ρ c)
theorem xnrm_3 : W16 m ρ c (Proc.devRef .tc main_v32) = val_main_v33 (F := Ideal) (A1 m c) (A2 m c) :=
  (W16_of_ne m ρ c main_v32 (by decide)).trans (nrm_3 m ρ c)
theorem xbias_3 : W16 m ρ c (Proc.devRef .tc main_arg10) = A10 m c :=
  (W16_of_ne m ρ c main_arg10 (by decide)).trans (launch_to_entry3 m ρ c main_arg10 (by decide) (by decide) (by decide) (by decide) (by decide) (by decide) (by decide))
theorem xnextw_3 : W16 m ρ c (Proc.devRef .tc main_arg11) = A11 m c :=
  (W16_of_ne m ρ c main_arg11 (by decide)).trans (launch_to_entry3 m ρ c main_arg11 (by decide) (by decide) (by decide) (by decide) (by decide) (by decide) (by decide))

set_option maxHeartbeats 4000000 in
/-- Layer 4's sum before the positive part. -/
theorem sum_3 : W17 m ρ c (Proc.devRef .tc main_v103)
    = val_main_v186 (F := Ideal) (A0 m c) (A1 m c) (A2 m c) (A3 m c) (A4 m c) (A5 m c) (A6 m c) (A7 m c) (A8 m c) (A9 m c) (A10 m c) := by
  show StableHlo.after hostOps4 (W16 m ρ c) (Proc.devRef .tc main_v103) = _
  after_results_simp
  rw [prod_3, xsrc_3, xdst_3, xnrm_3, xbias_3]
  rfl

/-- Layer 4's output, at the next product's entry: the reference's ReLU of that layer. -/
theorem tail_3 : W19 m ρ c (Proc.devRef .tc main_v104)
    = val_main_v187 (F := Ideal) (A0 m c) (A1 m c) (A2 m c) (A3 m c) (A4 m c) (A5 m c) (A6 m c) (A7 m c) (A8 m c) (A9 m c) (A10 m c) := by
  refine (weight_keeps_4 (W18 m ρ c)).trans ((relu_step_4 (W17 m ρ c)).trans ?_)
  rw [sum_3]
  rfl

/-- The next weight matrix in the product's format. -/
theorem wt_4 : @Eq (FVec Ideal S256x1 .bf16) (V19 m ρ c main_v105) (truncf .bf16 (A11 m c) bitsLt_bf16_f32) := by
  refine (weight_step_4 (W18 m ρ c)).trans ?_
  rw [show W18 m ρ c (Proc.devRef .tc main_arg11) = A11 m c from
    (StableHlo.after_of_writes_sub hostOps4_1 _ hostOps4_1_writes (by decide)).trans
      ((StableHlo.after_of_writes_sub hostOps4 _ hostOps4_writes (by decide)).trans (xnextw_3 m ρ c))]

end Cert.Bridge

end
-- ==== Proof.Tiles4.lean ====
/-
  Region 4 of the program: a grid of ten points, point `t` taking rows `[2000·t, 2000·t + 2000)` of a
  `[20000, 256]` array `X` and the whole of a `[256, 1]` array `W`, and writing rows `[2000·t, 2000·t + 2000)` of
  the `[20000, 1]` output.  The tile's body is one product into a zero accumulator, so at the entry `(p, q)` of
  the tile it is `∑ k, X (2000·t + p, k) · W (k, q)`: entry `(2000·t + p, q)` of `X · W`.  Row `r` of the output lies
  in the block of point `r / 2000` and of no other, every point writes its block back, and so the output array
  after the region is the whole product `X · W` of the two arrays as the region found them.
-/
import proofs.«166896_j16209206575854_1_alg».proof.Proof.Gen.KernelIdeal.Frame
import proofs.«166896_j16209206575854_1_alg».proof.Proof.LibRowProduct

set_option maxRecDepth 16384

noncomputable section

namespace Cert.KernelIdeal.Tiles4

open Cert.KernelIdeal Cert.KernelIdeal.Gen Cert.RowProduct
open Idealize.ShloMosaic Idealize.ShloMosaic.TcCoe Idealize.ShloMosaic.ValueIdx
open Idealize.SL Idealize.SL.Sem
open Idealize.ShloMosaic.Pipeline (Dat Cfg Window)
open scoped BigOperators

/-! ## The tile's product: which operand coordinate is which -/

theorem lhs_row (i : S2000x1.Idx) (q : dot_S2000x256_S256x1_S2000x1_1_0_0_1_n_n.contr.Idx) : (dot_S2000x256_S256x1_S2000x1_1_0_0_1_n_n.lhsIdx i q 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
theorem lhs_contr (i : S2000x1.Idx) (q : dot_S2000x256_S256x1_S2000x1_1_0_0_1_n_n.contr.Idx) : (dot_S2000x256_S256x1_S2000x1_1_0_0_1_n_n.lhsIdx i q 1).val = (q ⟨0, by decide⟩).val :=
  dot_S2000x256_S256x1_S2000x1_1_0_0_1_n_n.lhsIdx_val_of_single rfl i q
theorem rhs_contr (i : S2000x1.Idx) (q : dot_S2000x256_S256x1_S2000x1_1_0_0_1_n_n.contr.Idx) : (dot_S2000x256_S256x1_S2000x1_1_0_0_1_n_n.rhsIdx i q 0).val = (q ⟨0, by decide⟩).val :=
  dot_S2000x256_S256x1_S2000x1_1_0_0_1_n_n.rhsIdx_val_of_single rfl i q
theorem rhs_col (i : S2000x1.Idx) (q : dot_S2000x256_S256x1_S2000x1_1_0_0_1_n_n.contr.Idx) : (dot_S2000x256_S256x1_S2000x1_1_0_0_1_n_n.rhsIdx i q 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

/-- The body's one stored value at an entry of the tile: the sum over the contracted axis of the tile's row of
    `X` against the column of `W` (the narrowing of `X`'s format and the casts of a shape to itself are
    identities). -/
theorem tile_entry (x0 : FVec Ideal S2000x256 .f32) (x1 : FVec Ideal S256x1 .bf16) (j : S2000x1.Idx) :
    k4_pay1 (F := Ideal) x0 x1 j = ∑ k : Fin 256, x0 (ix2 (j 0) k) * x1 (ix2 k (j 1)) := by
  unfold k4_pay1
  simp only [shapeCast_self]
  exact matmul_trunc_entry dot_S2000x256_S256x1_S2000x1_1_0_0_1_n_n rfl rfl lhs_row lhs_contr rhs_contr rhs_col x0 x1 _ j

/-! ## From the tiles to the array -/

theorem zero_offsets : (![0, 0] : Fin 2 → Nat) = fun _ => 0 := funext fun a => by fin_cases a <;> rfl

/-- The printed index maps over the grid: the row-tiled windows sit at block row `t`, block column `0`; the
    second operand's one block is at `(0, 0)` at every point. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point `t` writes back is block `t` of the product of the two arrays as the region finds them. -/
theorem written_back (c : Dev nD) (t : Fin cfg4.N) :
    (dat4 (F := Ideal) V c).flushed 2 t
      = ((cfg4.win 2).blk t).view.read (Elt Ideal) (rowProduct (φ₁ := .f32) (φ₂ := .bf16) (V c main_v104) (V c main_v105)) := by
  show (cfg4.win 2).cut (grid4.coords t) ((dat4 V c).after 2 t) = _
  rw [after4_2]
  unfold out4_2
  rw [View.canon_unit_zero zero_offsets]
  simp only [View.ld_unit_zero (S := S2000x256) zero_offsets, View.ld_unit_zero (S := S256x1) zero_offsets]
  obtain ⟨e00, e01, e10, e11, e20, e21⟩ := block_indices t
  funext j
  refine (tile_entry (iblk4 V c 0 t) (iblk4 V c 1 t) j).trans ?_
  show _ = rowProduct (φ₁ := .f32) (φ₂ := .bf16) (V c main_v104) (V c main_v105) (((cfg4.win 2).blk t).view.emb j)
  unfold rowProduct
  refine Finset.sum_congr rfl fun k _ => ?_
  refine congr (congrArg _ ?_) ?_
  · show V c main_v104 (((cfg4.win 0).blk t).view.emb (ix2 (j 0) k)) = V c main_v104 _
    refine congrArg (V c main_v104) (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 256 + 1 * k.val = k.val; omega
  · show V c main_v105 (((cfg4.win 1).blk t).view.emb (ix2 k (j 1))) = V c main_v105 _
    refine congrArg (V c main_v105) (funext fun a => Fin.ext ?_)
    match a with
    | ⟨0, _⟩ => show win4_1.index t (0 : Fin 2) * 256 + 1 * k.val = k.val; omega
    | ⟨1, _⟩ => show win4_1.index t (1 : Fin 2) * 1 + 1 * (j 1).val = win4_2.index t (1 : Fin 2) * 1 + 1 * (j 1).val; omega

/-- An index of the output array lies in point `t`'s block iff each coordinate lies in the block's range. -/
theorem mem_block (t : Fin cfg4.N) (i : S20000x1.Idx) :
    i ∈ ((cfg4.win 2).blk t).view.set ↔ ∀ a : Fin 2, win4_2.index t a * S2000x1.size a ≤ (i a).val ∧ (i a).val < win4_2.index t a * S2000x1.size a + S2000x1.size a := by
  show i ∈ ((View.whole main_v106).slice (win4_2.rect t)).set ↔ _
  rw [View.set_slice_whole, Rect.mem_set_unit]
  exact Iff.rfl

/-- Row `r` of the output is in the block of point `r / 2000`, which writes it back. -/
theorem rows_covered (i : S20000x1.Idx) :
    ∃ t : Fin cfg4.N, (cfg4.win 2).flush t = true ∧ i ∈ ((cfg4.win 2).blk t).view.set := by
  have hi0 : (i 0).val < 20000 := (i 0).isLt
  have hi1 : (i 1).val < 1 := (i 1).isLt
  have hN : grid4.N = 10 := N_4
  refine ⟨⟨(i 0).val / 2000, by show (i 0).val / 2000 < grid4.N; omega⟩, flush4_2 _, ?_⟩
  rw [mem_block]
  obtain ⟨e00, e01, e10, e11, e20, e21⟩ := block_indices ⟨(i 0).val / 2000, by show (i 0).val / 2000 < grid4.N; omega⟩
  intro a
  match a with
  | ⟨0, _⟩ =>
    show win4_2.index _ (0 : Fin 2) * 2000 ≤ (i 0).val ∧ (i 0).val < win4_2.index _ (0 : Fin 2) * 2000 + 2000
    rw [e20]; show (i 0).val / 2000 * 2000 ≤ (i 0).val ∧ (i 0).val < (i 0).val / 2000 * 2000 + 2000; omega
  | ⟨1, _⟩ =>
    show win4_2.index _ (1 : Fin 2) * 1 ≤ (i 1).val ∧ (i 1).val < win4_2.index _ (1 : Fin 2) * 1 + 1
    rw [e21]; omega

/-- THE OUTPUT ARRAY after the region: the product of the two input arrays as the region found them. -/
theorem product_array (c : Dev nD) :
    (dat4 (F := Ideal) V c).arrAt 2 cfg4.N
      = rowProduct (φ₁ := .f32) (φ₂ := .bf16) (V c main_v104) (V c main_v105) :=
  (dat4 (F := Ideal) V c).arrAt_eq_of_cover 2 _ (fun t _ => written_back V c t) rows_covered

end Cert.KernelIdeal.Tiles4

end
-- ==== Proof.Layer5.lean ====
/-
  Layer 5, read off the run.

  At the entry of product 4 the activations are layer 4's output (the reference's ReLU of that layer) and the
  weight matrix is argument 11 in the product's float format — the identity on the extended reals.  The edge
  sources, destinations and normalisation are the arrays built before the first product, untouched since: no
  layer writes them.  The product's output array is the whole matrix product; the layer's tail gathers its rows
  by source, scales by the normalisation, sums by destination and adds the bias: the program's result.
  The reference recomputes the edge arrays in every layer, by the same operations on the same arguments, so its
  copies are the same values and the two layers agree stage by stage.
-/
import proofs.«166896_j16209206575854_1_alg».proof.Proof.Layer4
import proofs.«166896_j16209206575854_1_alg».proof.Proof.Tiles4

set_option maxRecDepth 16384

noncomputable section

namespace Cert.Bridge

open Cert.KernelIdeal Cert.KernelIdeal.Gen Cert.KernelIdeal.Carry Cert.KernelIdeal.Args Cert.RowProduct
open Idealize.ShloMosaic Idealize.ShloMosaic.TcCoe Idealize.ShloMosaic.StableHlo
open Idealize.SL Idealize.SL.Sem
open Cert.ReferenceIdeal.Read (val_main_v6 val_main_v7 val_main_v33 val_main_v187 val_main_v188 val_main_v231)

variable (m : (ℓ : Loc nD τ sig) → Buf (Elt Ideal) ℓ) (ρ : Dev nD → PrngReg) (c : Dev nD)

/-! ## At product 4's entry -/

theorem in_4 : V19 m ρ c main_v104 = val_main_v187 (F := Ideal) (A0 m c) (A1 m c) (A2 m c) (A3 m c) (A4 m c) (A5 m c) (A6 m c) (A7 m c) (A8 m c) (A9 m c) (A10 m c) := tail_3 m ρ c

theorem src_4 : W19 m ρ c (Proc.devRef .tc main_v5) = val_main_v6 (F := Ideal) (A1 m c) :=
  (entry0_to_entry4 m ρ c main_v5 (by decide) (by decide) (by decide) (by decide) (by decide) (by decide) (by decide) (by decide)).trans (src_0 m ρ c)
theorem dst_4 : W19 m ρ c (Proc.devRef .tc main_v6) = val_main_v7 (F := Ideal) (A1 m c) :=
  (entry0_to_entry4 m ρ c main_v6 (by decide) (by decide) (by decide) (by decide) (by decide) (by decide) (by decide) (by decide)).trans (dst_0 m ρ c)
theorem nrm_4 : W19 m ρ c (Proc.devRef .tc main_v32) = val_main_v33 (F := Ideal) (A1 m c) (A2 m c) :=
  (entry0_to_entry4 m ρ c main_v32 (by decide) (by decide) (by decide) (by decide) (by decide) (by decide) (by decide) (by decide)).trans (nrm_0 m ρ c)

/-! ## The product -/

theorem prod_4 : W20 m ρ c (Proc.devRef .tc main_v106) = val_main_v188 (F := Ideal) (A0 m c) (A1 m c) (A2 m c) (A3 m c) (A4 m c) (A5 m c) (A6 m c) (A7 m c) (A8 m c) (A9 m c) (A10 m c) (A11 m c) := by
  refine (W20_arr m ρ c 2).trans ?_
  rw [Tiles4.product_array (V19 m ρ) c, in_4, wt_4]
  unfold val_main_v188
  rw [Cert.ReferenceIdeal.Products.product_256_1]
  rfl

/-! ## The layer's tail -/

theorem xsrc_4 : W20 m ρ c (Proc.devRef .tc main_v5) = val_main_v6 (F := Ideal) (A1 m c) :=
  (W20_of_ne m ρ c main_v5 (by decide)).trans (src_4 m ρ c)
theorem xdst_4 : W20 m ρ c (Proc.devRef .tc main_v6) = val_main_v7 (F := Ideal) (A1 m c) :=
  (W20_of_ne m ρ c main_v6 (by decide)).trans (dst_4 m ρ c)
theorem xnrm_4 : W20 m ρ c (Proc.devRef .tc main_v32) = val_main_v33 (F := Ideal) (A1 m c) (A2 m c) :=
  (W20_of_ne m ρ c main_v32 (by decide)).trans (nrm_4 m ρ c)
theorem xbias_4 : W20 m ρ c (Proc.devRef .tc main_arg12) = A12 m c :=
  (W20_of_ne m ρ c main_arg12 (by decide)).trans (launch_to_entry4 m ρ c main_arg12 (by decide) (by decide) (by decide) (by decide) (by decide) (by decide) (by decide) (by decide) (by decide))

set_option maxHeartbeats 4000000 in
/-- The program's result: the reference's. -/
theorem tail_4 : W21 m ρ c (Proc.devRef .tc main_v120)
    = val_main_v231 (F := Ideal) (A0 m c) (A1 m c) (A2 m c) (A3 m c) (A4 m c) (A5 m c) (A6 m c) (A7 m c) (A8 m c) (A9 m c) (A10 m c) (A11 m c) (A12 m c) := by
  show StableHlo.after hostOps5 (W20 m ρ c) (Proc.devRef .tc main_v120) = _
  after_results_simp
  rw [prod_4, xsrc_4, xdst_4, xnrm_4, xbias_4]
  rfl

end Cert.Bridge

end
-- ==== Proof.lean ====
/-
  A five-layer graph convolution, row-tiled products against whole products.

  Both programs compute, for node features `X`, an edge list with weights, and five weight/bias pairs,
      H₀ = X,   Hₗ₊₁ = relu (Agg (Hₗ · Wₗ) + bₗ)   (the last layer without the relu),
  where `Agg` gathers the rows of its argument by each edge's source node, scales row `e` by the edge's
  normalisation `d(src e) · w(e) · d(dst e)`, and adds the rows up by destination node; the edges are the given
  ones followed by one self-loop of weight one per node, and `d` is the inverse square root of a node's weighted
  in-degree where that is positive, zero elsewhere.  The two differ in two ways only.  The kernel program
  computes the products `Hₗ · Wₗ` on a grid of ten row blocks, each block one product into a zero accumulator,
  after a change of float format that is the identity on the extended reals; row `r` of the output belongs to
  exactly one block, and a block's entry is the same finite sum over the contracted axis as the whole product's
  (`Tiles0 … Tiles4`, `LibRowProduct`).  And the kernel program builds the edge arrays and the normalisation once,
  before the first product, where the reference rebuilds them in every layer — by the same operations on the
  same arguments, so the values are the same and nothing but the names of the buffers differs; no layer writes
  those arrays, so they reach every layer as built (`Carry`).  Everything else is operation for operation the
  same on equal values (`Layer1 … Layer5`).  Sums and products on the extended reals form a commutative monoid,
  so no step needs an entry to be finite, and the precondition is never opened.

  The kernel program's run, with its result named, is the frame's run read once more (`KernelRun`); the
  reference's is its composed term.  Both results are then one and the same function of the arguments.
-/
import proofs.«166896_j16209206575854_1_alg».proof.Defs
import proofs.«166896_j16209206575854_1_alg».proof.Proof.Gen.Kernel
import proofs.«166896_j16209206575854_1_alg».proof.Proof.Gen.Kernel.Skeleton
import proofs.«166896_j16209206575854_1_alg».proof.Proof.Gen.Kernel.Launch
import proofs.«166896_j16209206575854_1_alg».proof.Proof.Gen.Kernel.Points
import proofs.«166896_j16209206575854_1_alg».proof.Proof.Gen.Kernel.Frame
import proofs.«166896_j16209206575854_1_alg».proof.Proof.Gen.KernelIdeal
import proofs.«166896_j16209206575854_1_alg».proof.Proof.Gen.KernelIdeal.Skeleton
import proofs.«166896_j16209206575854_1_alg».proof.Proof.Gen.KernelIdeal.Launch
import proofs.«166896_j16209206575854_1_alg».proof.Proof.Gen.KernelIdeal.Points
import proofs.«166896_j16209206575854_1_alg».proof.Proof.Gen.KernelIdeal.Frame
import proofs.«166896_j16209206575854_1_alg».proof.Proof.Gen.ReferenceIdeal
import proofs.«166896_j16209206575854_1_alg».proof.Proof.Gen.Pre_finite_inputs
import proofs.«166896_j16209206575854_1_alg».proof.Proof.Gen.ReferenceIdeal.Run
import proofs.«166896_j16209206575854_1_alg».proof.Proof.Gen.ReferenceIdeal.Read
import proofs.«166896_j16209206575854_1_alg».proof.Proof.KernelRun
import proofs.«166896_j16209206575854_1_alg».proof.Proof.Layer5
import Idealize.ShloMosaic.Adequacy
import Idealize.ShloMosaic.Init

noncomputable section

namespace Cert.Proof

open Idealize.ShloMosaic Idealize.ShloMosaic.TcCoe Idealize.SL.Sem
open Cert.KernelIdeal.Args
open Cert.ReferenceIdeal.Read (val_main_v231)

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same array of extended reals: the
    reference's last stage, as a function of the (shared) arguments. -/
theorem algebraic : Cert.algebraic_KernelIdeal_ReferenceIdeal := by
  intro m ρ m' ρ' _ hagree
  refine ⟨fun c => val_main_v231 (F := Ideal) (A0 m c) (A1 m c) (A2 m c) (A3 m c) (A4 m c) (A5 m c) (A6 m c) (A7 m c) (A8 m c) (A9 m c) (A10 m c) (A11 m c) (A12 m c), ?_, ?_⟩
  · exact (θ_run Cert.KernelIdeal.defs _ _).mono
      (fun r h c => ⟨(h c).1.trans (Cert.Bridge.tail_4 m ρ c), (h c).2⟩)
      (Cert.KernelIdeal.Named.run_result (F := Ideal) m ρ)
  · refine (θ_run Cert.ReferenceIdeal.defs _ _).mono (fun r h c => ⟨(h c).1.trans ?_, (h c).2⟩)
      (Cert.ReferenceIdeal.Value.run (F := Ideal) m' ρ')
    show Cert.ReferenceIdeal.Value.res_main_v231 m' c = val_main_v231 (F := Ideal) (A0 m c) (A1 m c) (A2 m c) (A3 m c) (A4 m c) (A5 m c) (A6 m c) (A7 m c) (A8 m c) (A9 m c) (A10 m c) (A11 m c) (A12 m c)
    rw [Cert.ReferenceIdeal.Read.val_main_v231_eq]
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
